-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x800000 : Shape := ⟨2, ![2, 800000]⟩
abbrev S100000 : Shape := ⟨1, ![100000]⟩
abbrev S512x1 : Shape := ⟨2, ![512, 1]⟩
abbrev S128x32 : Shape := ⟨2, ![128, 32]⟩
abbrev S128 : Shape := ⟨1, ![128]⟩
abbrev S128x128 : Shape := ⟨2, ![128, 128]⟩
abbrev S64x129 : Shape := ⟨2, ![64, 129]⟩
abbrev S64 : Shape := ⟨1, ![64]⟩
abbrev S32x64 : Shape := ⟨2, ![32, 64]⟩
abbrev S32 : Shape := ⟨1, ![32]⟩
abbrev S6x32 : Shape := ⟨2, ![6, 32]⟩
abbrev S6 : Shape := ⟨1, ![6]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S512x1 : S_.BroadcastsInDim S512x1 (![] : Fin 0 → Fin S512x1.rank)
  reducesTo_S512x1_S_d0_1 : S512x1.ReducesTo [0, 1] S_
  bcast_S_S128x32 : S_.BroadcastsInDim S128x32 (![] : Fin 0 → Fin S128x32.rank)
  reducesTo_S128x32_S_d0_1 : S128x32.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S64x129 : S_.BroadcastsInDim S64x129 (![] : Fin 0 → Fin S64x129.rank)
  reducesTo_S64x129_S_d0_1 : S64x129.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S6x32 : S_.BroadcastsInDim S6x32 (![] : Fin 0 → Fin S6x32.rank)
  reducesTo_S6x32_S_d0_1 : S6x32.ReducesTo [0, 1] S_
  bcast_S_S6 : S_.BroadcastsInDim S6 (![] : Fin 0 → Fin S6.rank)
  reducesTo_S6_S_d0 : S6.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S32 .f32) (main_arg14 : FVec F S6x32 .f32) (main_arg15 : FVec F S6 .f32) (main_v48 : IVec S_ 1) (main_v49 : FVec F S32x64 .f32) (main_v50 : FVec F S32x64 .f32) : IVec S_ 1 :=
  let main_v51 : IVec S32x64 1 := cmpf .olt main_v49 main_v50
  let main_c_19 : IVec S_ 1 := constantI S_ 1 1#1
  let main_v52 : IVec S_ 1 := (fun x v => Host.reduce IntOp.andi x v reducesTo_S32x64_S_d0_1 h_S_) main_v51 main_c_19
  let main_v53 : IVec S_ 1 := andi main_v48 main_v52
  let main_v54 : FVec F S32 .f32 := Host.absf main_arg13
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S6x32 .f32 := Host.absf main_arg14
  let main_cst_22 : FVec F S_ .f32 := constant S_ .f32 0x7F800000#32
  let main_v60 : FVec F S6x32 .f32 := broadcastInDim S6x32 ![] bcast_S_S6x32 main_cst_22
  let main_v61 : IVec S6x32 1 := cmpf .olt main_v59 main_v60
  let main_c_23 : IVec S_ 1 := constantI S_ 1 1#1
  let main_v62 : IVec S_ 1 := (fun x v => Host.reduce IntOp.andi x v reducesTo_S6x32_S_d0_1 h_S_) main_v61 main_c_23
  let main_v63 : IVec S_ 1 := andi main_v58 main_v62
  let main_v64 : FVec F S6 .f32 := Host.absf main_arg15
  let main_cst_24 : FVec F S_ .f32 := constant S_ .f32 0x7F800000#32
  let main_v65 : FVec F S6 .f32 := broadcastInDim S6 ![] bcast_S_S6 main_cst_24
  let main_v66 : IVec S6 1 := cmpf .olt main_v64 main_v65
  let main_c_25 : IVec S_ 1 := constantI S_ 1 1#1
  let main_v67 : IVec S_ 1 := (fun x v => Host.reduce IntOp.andi x v reducesTo_S6_S_d0 h_S_) main_v66 main_c_25
  fn_part4 (F := F) main_v63 main_v67

def fn_part2 {F : FTy → Type} [FloatOps F] (main_arg9 : FVec F S128x128 .f32) (main_arg10 : FVec F S64x129 .f32) (main_arg11 : FVec F S64 .f32) (main_arg12 : FVec F S32x64 .f32) (main_arg13 : FVec F S32 .f32) (main_arg14 : FVec F S6x32 .f32) (main_arg15 : FVec F S6 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S64x129 .f32 := Host.absf main_arg10
  let main_cst_14 : FVec F S_ .f32 := constant S_ .f32 0x7F800000#32
  let main_v40 : FVec F S64x129 .f32 := broadcastInDim S64x129 ![] bcast_S_S64x129 main_cst_14
  let main_v41 : IVec S64x129 1 := cmpf .olt main_v39 main_v40
  let main_c_15 : IVec S_ 1 := constantI S_ 1 1#1
  let main_v42 : IVec S_ 1 := (fun x v => Host.reduce IntOp.andi x v reducesTo_S64x129_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S32x64 .f32 := Host.absf main_arg12
  let main_cst_18 : FVec F S_ .f32 := constant S_ .f32 0x7F800000#32
  let main_v50 : FVec F S32x64 .f32 := broadcastInDim S32x64 ![] bcast_S_S32x64 main_cst_18
  fn_part3 (F := F) main_arg13 main_arg14 main_arg15 main_v48 main_v49 main_v50

def fn_part1 {F : FTy → Type} [FloatOps F] (main_arg6 : FVec F S128x32 .f32) (main_arg7 : FVec F S128x128 .f32) (main_arg8 : FVec F S128 .f32) (main_arg9 : FVec F S128x128 .f32) (main_arg10 : FVec F S64x129 .f32) (main_arg11 : FVec F S64 .f32) (main_arg12 : FVec F S32x64 .f32) (main_arg13 : FVec F S32 .f32) (main_arg14 : FVec F S6x32 .f32) (main_arg15 : FVec F S6 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x32 .f32 := Host.absf main_arg6
  let main_cst_6 : FVec F S_ .f32 := constant S_ .f32 0x7F800000#32
  let main_v20 : FVec F S128x32 .f32 := broadcastInDim S128x32 ![] bcast_S_S128x32 main_cst_6
  let main_v21 : IVec S128x32 1 := cmpf .olt main_v19 main_v20
  let main_c_7 : IVec S_ 1 := constantI S_ 1 1#1
  let main_v22 : IVec S_ 1 := (fun x v => Host.reduce IntOp.andi x v reducesTo_S128x32_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S100000x32 .f32) (main_arg1 : IVec S2x800000 32) (main_arg2 : IVec S100000 32) (main_arg3 : FVec F S512x1 .f32) (main_arg4 : FVec F S128x32 .f32) (main_arg5 : FVec F S128 .f32) (main_arg6 : FVec F S128x32 .f32) (main_arg7 : FVec F S128x128 .f32) (main_arg8 : FVec F S128 .f32) (main_arg9 : FVec F S128x128 .f32) (main_arg10 : FVec F S64x129 .f32) (main_arg11 : FVec F S64 .f32) (main_arg12 : FVec F S32x64 .f32) (main_arg13 : FVec F S32 .f32) (main_arg14 : FVec F S6x32 .f32) (main_arg15 : FVec F S6 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S512x1 .f32 := Host.absf main_arg3
  let main_cst_0 : FVec F S_ .f32 := constant S_ .f32 0x7F800000#32
  let main_v5 : FVec F S512x1 .f32 := broadcastInDim S512x1 ![] bcast_S_S512x1 main_cst_0
  let main_v6 : IVec S512x1 1 := cmpf .olt main_v4 main_v5
  let main_c_1 : IVec S_ 1 := constantI S_ 1 1#1
  let main_v7 : IVec S_ 1 := (fun x v => Host.reduce IntOp.andi x v reducesTo_S512x1_S_d0_1 h_S_) main_v6 main_c_1
  let main_v8 : IVec S_ 1 := andi main_v3 main_v7
  let main_v9 : FVec F S128x32 .f32 := Host.absf main_arg4
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_v13 main_v16
-- ==== Kernel.lean ====
abbrev S100000x32 : Shape := ⟨2, ![100000, 32]⟩
abbrev S2x800000 : Shape := ⟨2, ![2, 800000]⟩
abbrev S100000 : Shape := ⟨1, ![100000]⟩
abbrev S512x1 : Shape := ⟨2, ![512, 1]⟩
abbrev S128x32 : Shape := ⟨2, ![128, 32]⟩
abbrev S128 : Shape := ⟨1, ![128]⟩
abbrev S128x128 : Shape := ⟨2, ![128, 128]⟩
abbrev S64x129 : Shape := ⟨2, ![64, 129]⟩
abbrev S64 : Shape := ⟨1, ![64]⟩
abbrev S32x64 : Shape := ⟨2, ![32, 64]⟩
abbrev S32 : Shape := ⟨1, ![32]⟩
abbrev S6x32 : Shape := ⟨2, ![6, 32]⟩
abbrev S6 : Shape := ⟨1, ![6]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x32 : Shape := ⟨2, ![800000, 32]⟩
abbrev S32x128 : Shape := ⟨2, ![32, 128]⟩
abbrev S1x128 : Shape := ⟨2, ![1, 128]⟩
abbrev S100000x128 : Shape := ⟨2, ![100000, 128]⟩
abbrev S5000x32 : Shape := ⟨2, ![5000, 32]⟩
abbrev S5000x128 : Shape := ⟨2, ![5000, 128]⟩
abbrev S800000x128 : Shape := ⟨2, ![800000, 128]⟩
abbrev S512x128 : Shape := ⟨2, ![512, 128]⟩
abbrev S100000x1 : Shape := ⟨2, ![100000, 1]⟩
abbrev S512x129 : Shape := ⟨2, ![512, 129]⟩
abbrev S129x64 : Shape := ⟨2, ![129, 64]⟩
abbrev S64x32 : Shape := ⟨2, ![64, 32]⟩
abbrev S32x6 : Shape := ⟨2, ![32, 6]⟩
abbrev S1x64 : Shape := ⟨2, ![1, 64]⟩
abbrev S1x32 : Shape := ⟨2, ![1, 32]⟩
abbrev S1x6 : Shape := ⟨2, ![1, 6]⟩
abbrev S512x6 : Shape := ⟨2, ![512, 6]⟩
abbrev S512x64 : Shape := ⟨2, ![512, 64]⟩
abbrev S512x32 : Shape := ⟨2, ![512, 32]⟩

abbrev nBuf : Space → Nat
  | .hbm => 66
  | .vmem => 26
  | .smem => 0
  | _ => 0

abbrev bufTy : (tb : Table) → Fin (tcTables nBuf tb) → BufTy
  | .hbm, ⟨0, _⟩ => ⟨S100000x32, .f32⟩
  | .hbm, ⟨1, _⟩ => ⟨S2x800000, .i32⟩
  | .hbm, ⟨2, _⟩ => ⟨S100000, .i32⟩
  | .hbm, ⟨3, _⟩ => ⟨S512x1, .f32⟩
  | .hbm, ⟨4, _⟩ => ⟨S128x32, .f32⟩
  | .hbm, ⟨5, _⟩ => ⟨S128, .f32⟩
  | .hbm, ⟨6, _⟩ => ⟨S128x32, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S64x129, .f32⟩
  | .hbm, ⟨11, _⟩ => ⟨S64, .f32⟩
  | .hbm, ⟨12, _⟩ => ⟨S32x64, .f32⟩
  | .hbm, ⟨13, _⟩ => ⟨S32, .f32⟩
  | .hbm, ⟨14, _⟩ => ⟨S6x32, .f32⟩
  | .hbm, ⟨15, _⟩ => ⟨S6, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x32, .f32⟩
  | .hbm, ⟨29, _⟩ => ⟨S_, .f32⟩
  | .hbm, ⟨30, _⟩ => ⟨S100000x32, .f32⟩
  | .hbm, ⟨31, _⟩ => ⟨S800000x1, .i32⟩
  | .hbm, ⟨32, _⟩ => ⟨S100000x32, .f32⟩
  | .hbm, ⟨33, _⟩ => ⟨S32x128, .f32⟩
  | .hbm, ⟨34, _⟩ => ⟨S32x128, .f32⟩
  | .hbm, ⟨35, _⟩ => ⟨S1x128, .f32⟩
  | .hbm, ⟨36, _⟩ => ⟨S100000x128, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x128, .f32⟩
  | .hbm, ⟨46, _⟩ => ⟨S_, .f32⟩
  | .hbm, ⟨47, _⟩ => ⟨S100000x128, .f32⟩
  | .hbm, ⟨48, _⟩ => ⟨S800000x1, .i32⟩
  | .hbm, ⟨49, _⟩ => ⟨S100000x128, .f32⟩
  | .hbm, ⟨50, _⟩ => ⟨S128x128, .f32⟩
  | .hbm, ⟨51, _⟩ => ⟨S128x128, .f32⟩
  | .hbm, ⟨52, _⟩ => ⟨S1x128, .f32⟩
  | .hbm, ⟨53, _⟩ => ⟨S100000x128, .f32⟩
  | .hbm, ⟨54, _⟩ => ⟨S_, .f32⟩
  | .hbm, ⟨55, _⟩ => ⟨S512x128, .f32⟩
  | .hbm, ⟨56, _⟩ => ⟨S100000x1, .i32⟩
  | .hbm, ⟨57, _⟩ => ⟨S512x128, .f32⟩
  | .hbm, ⟨58, _⟩ => ⟨S512x129, .f32⟩
  | .hbm, ⟨59, _⟩ => ⟨S129x64, .f32⟩
  | .hbm, ⟨60, _⟩ => ⟨S64x32, .f32⟩
  | .hbm, ⟨61, _⟩ => ⟨S32x6, .f32⟩
  | .hbm, ⟨62, _⟩ => ⟨S1x64, .f32⟩
  | .hbm, ⟨63, _⟩ => ⟨S1x32, .f32⟩
  | .hbm, ⟨64, _⟩ => ⟨S1x6, .f32⟩
  | .hbm, ⟨65, _⟩ => ⟨S512x6, .f32⟩
  | .local _ .vmem, ⟨0, _⟩ => ⟨S5000x32, .f32⟩
  | .local _ .vmem, ⟨1, _⟩ => ⟨S5000x32, .f32⟩
  | .local _ .vmem, ⟨2, _⟩ => ⟨S5000x32, .f32⟩
  | .local _ .vmem, ⟨3, _⟩ => ⟨S5000x32, .f32⟩
  | .local _ .vmem, ⟨4, _⟩ => ⟨S32x128, .f32⟩
  | .local _ .vmem, ⟨5, _⟩ => ⟨S32x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S512x129, .f32⟩
  | .local _ .vmem, ⟨19, _⟩ => ⟨S129x64, .f32⟩
  | .local _ .vmem, ⟨20, _⟩ => ⟨S1x64, .f32⟩
  | .local _ .vmem, ⟨21, _⟩ => ⟨S64x32, .f32⟩
  | .local _ .vmem, ⟨22, _⟩ => ⟨S1x32, .f32⟩
  | .local _ .vmem, ⟨23, _⟩ => ⟨S32x6, .f32⟩
  | .local _ .vmem, ⟨24, _⟩ => ⟨S1x6, .f32⟩
  | .local _ .vmem, ⟨25, _⟩ => ⟨S512x6, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_1 : Ref sig .tc := ⟨.hbm, 37, rfl⟩
abbrev main_v18 : Ref sig .tc := ⟨.hbm, 38, rfl⟩
abbrev main_v19 : Ref sig .tc := ⟨.hbm, 39, rfl⟩
abbrev main_c_2 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_4 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg7_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem7_0 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S512x129 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S129x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S32x6 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x6 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S512x6 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x32 : S_.BroadcastsInDim S100000x32 (![] : Fin 0 → Fin S100000x32.rank)
  transposes_S128x32_S32x128_1_0 : S128x32.Transposes [1, 0] S32x128
  shapeCasts_S128_S1x128 : S128.ShapeCasts S1x128
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  transposes_S128x128_S128x128_1_0 : S128x128.Transposes [1, 0] S128x128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S512x128 : S_.BroadcastsInDim S512x128 (![] : Fin 0 → Fin S512x128.rank)
  bcast_S100000_S100000x1_0 : S100000.BroadcastsInDim S100000x1 (![0] : Fin 1 → Fin S100000x1.rank)
  concatenates_S512x128_S512x1_S512x129_d1 : Shape.Concatenates [S512x128, S512x1] S512x129 1
  transposes_S64x129_S129x64_1_0 : S64x129.Transposes [1, 0] S129x64
  transposes_S32x64_S64x32_1_0 : S32x64.Transposes [1, 0] S64x32
  transposes_S6x32_S32x6_1_0 : S6x32.Transposes [1, 0] S32x6
  shapeCasts_S64_S1x64 : S64.ShapeCasts S1x64
  shapeCasts_S32_S1x32 : S32.ShapeCasts S1x32
  shapeCasts_S6_S1x6 : S6.ShapeCasts S1x6
  inb_S512x129_S512x129_0_0 : ∀ a, (![0, 0] : Fin 2 → Nat) a + S512x129.size a ≤ S512x129.size a
  h_S512x129 : 0 < S512x129.numel
  shapeCasts_S512x129_S512x129 : S512x129.ShapeCasts S512x129
  inb_S129x64_S129x64_0_0 : ∀ a, (![0, 0] : Fin 2 → Nat) a + S129x64.size a ≤ S129x64.size a
  h_S129x64 : 0 < S129x64.numel
  shapeCasts_S129x64_S129x64 : S129x64.ShapeCasts S129x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S512x32 : S1x32.Broadcasts S512x32
  inb_S32x6_S32x6_0_0 : ∀ a, (![0, 0] : Fin 2 → Nat) a + S32x6.size a ≤ S32x6.size a
  h_S32x6 : 0 < S32x6.numel
  shapeCasts_S32x6_S32x6 : S32x6.ShapeCasts S32x6
  inb_S1x6_S1x6_0_0 : ∀ a, (![0, 0] : Fin 2 → Nat) a + S1x6.size a ≤ S1x6.size a
  h_S1x6 : 0 < S1x6.numel
  shapeCasts_S1x6_S1x6 : S1x6.ShapeCasts S1x6
  broadcasts_S1x6_S512x6 : S1x6.Broadcasts S512x6
  inb_S512x6_S512x6_0_0 : ∀ a, (![0, 0] : Fin 2 → Nat) a + S512x6.size a ≤ S512x6.size a
  h_S512x6 : 0 < S512x6.numel
  gather_S100000x32_S800000x1_S800000x32_1_0_n_n_0_1_132_wf : GatherDims.WF S100000x32 S800000x1 S800000x32 [1] [0] [] [0] [] 1 ![1, 32]
  scatter_S100000x32_S800000x1_S800000x32_1_0_0_1_wf : ScatterDims.WF S100000x32 S800000x1 S800000x32 [1] [0] [0] 1
  dot_S5000x32_S32x128_S5000x128_1_0_0_1_n_n_wf : DotDims.WF S5000x32 S32x128 S5000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S5000x128_S128x128_S5000x128_1_0_0_1_n_n_wf : DotDims.WF S5000x128 S128x128 S5000x128 [1] [0] [0] [1] [] []
  scatter_S512x128_S100000x1_S100000x128_1_0_0_1_wf : ScatterDims.WF S512x128 S100000x1 S100000x128 [1] [0] [0] 1
  dot_S512x129_S129x64_S512x64_1_0_0_1_n_n_wf : DotDims.WF S512x129 S129x64 S512x64 [1] [0] [0] [1] [] []
  dot_S512x64_S64x32_S512x32_1_0_0_1_n_n_wf : DotDims.WF S512x64 S64x32 S512x32 [1] [0] [0] [1] [] []
  dot_S512x32_S32x6_S512x6_1_0_0_1_n_n_wf : DotDims.WF S512x32 S32x6 S512x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x32.size a ≤ S100000x32.size a
  hwx0_1 : ∀ i : grid0.Coords, EltTy.bits .f32 = 32 ∨ (Rect.block (s := S100000x32) S5000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S32x128.size a
  hwx0_2 : ∀ i : grid0.Coords, EltTy.bits .f32 = 32 ∨ (Rect.block (s := S32x128) S32x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S32x128.size a
  hwx0_3 : ∀ i : grid0.Coords, EltTy.bits .f32 = 32 ∨ (Rect.block (s := S32x128) S32x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S512x129.size a ≤ S512x129.size a
  hwx2_0 : ∀ i : grid2.Coords, EltTy.bits .f32 = 32 ∨ (Rect.block (s := S512x129) S512x129.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S129x64.size a ≤ S129x64.size a
  hwx2_1 : ∀ i : grid2.Coords, EltTy.bits .f32 = 32 ∨ (Rect.block (s := S129x64) S129x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x32.size a ≤ S64x32.size a
  hwx2_3 : ∀ i : grid2.Coords, EltTy.bits .f32 = 32 ∨ (Rect.block (s := S64x32) S64x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32x6.size a ≤ S32x6.size a
  hwx2_5 : ∀ i : grid2.Coords, EltTy.bits .f32 = 32 ∨ (Rect.block (s := S32x6) S32x6.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x6.size a ≤ S1x6.size a
  hwx2_6 : ∀ i : grid2.Coords, EltTy.bits .f32 = 32 ∨ (Rect.block (s := S1x6) S1x6.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S512x6.size a ≤ S512x6.size a
  hwx2_7 : ∀ i : grid2.Coords, EltTy.bits .f32 = 32 ∨ (Rect.block (s := S512x6) S512x6.size (cc2_transform_7 i) (hinb2_7 i)).WholeWords (EltTy.packing .f32)

variable [Facts₀]

def gather_S100000x32_S800000x1_S800000x32_1_0_n_n_0_1_132 : GatherDims S100000x32 S800000x1 S800000x32 where
  offsetDims := [1]
  collapsedSliceDims := [0]
  operandBatchingDims := []
  startIndicesBatchingDims := []
  startIndexMap := [0]
  indexVectorDim := 1
  sliceSizes := ![1, 32]
  wf := gather_S100000x32_S800000x1_S800000x32_1_0_n_n_0_1_132_wf
def scatter_S100000x32_S800000x1_S800000x32_1_0_0_1 : ScatterDims S100000x32 S800000x1 S800000x32 where
  updateWindowDims := [1]
  insertedWindowDims := [0]
  scatterDimsToOperandDims := [0]
  indexVectorDim := 1
  wf := scatter_S100000x32_S800000x1_S800000x32_1_0_0_1_wf
def dot_S5000x32_S32x128_S5000x128_1_0_0_1_n_n : DotDims S5000x32 S32x128 S5000x128 where
  lhsContracting := [1]
  rhsContracting := [0]
  lhsNonContracting := [0]
  rhsNonContracting := [1]
  lhsBatch := []
  rhsBatch := []
  wf := dot_S5000x32_S32x128_S5000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x129_S129x64_S512x64_1_0_0_1_n_n : DotDims S512x129 S129x64 S512x64 where
  lhsContracting := [1]
  rhsContracting := [0]
  lhsNonContracting := [0]
  rhsNonContracting := [1]
  lhsBatch := []
  rhsBatch := []
  wf := dot_S512x129_S129x64_S512x64_1_0_0_1_n_n_wf
def dot_S512x64_S64x32_S512x32_1_0_0_1_n_n : DotDims S512x64 S64x32 S512x32 where
  lhsContracting := [1]
  rhsContracting := [0]
  lhsNonContracting := [0]
  rhsNonContracting := [1]
  lhsBatch := []
  rhsBatch := []
  wf := dot_S512x64_S64x32_S512x32_1_0_0_1_n_n_wf
def dot_S512x32_S32x6_S512x6_1_0_0_1_n_n : DotDims S512x32 S32x6 S512x6 where
  lhsContracting := [1]
  rhsContracting := [0]
  lhsNonContracting := [0]
  rhsNonContracting := [1]
  lhsBatch := []
  rhsBatch := []
  wf := dot_S512x32_S32x6_S512x6_1_0_0_1_n_n_wf

abbrev win0_0 : Pipeline.Window sig grid0 :=
  Pipeline.Window.ofSpec (Memref.whole main_v13) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S32x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S32x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v35) S512x129.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v36) S129x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v37) S64x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v38) S32x6.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v41) S1x6.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v42) S512x6.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x32 : Shape := ⟨2, ![100000, 32]⟩
abbrev S2x800000 : Shape := ⟨2, ![2, 800000]⟩
abbrev S100000 : Shape := ⟨1, ![100000]⟩
abbrev S512x1 : Shape := ⟨2, ![512, 1]⟩
abbrev S128x32 : Shape := ⟨2, ![128, 32]⟩
abbrev S128 : Shape := ⟨1, ![128]⟩
abbrev S128x128 : Shape := ⟨2, ![128, 128]⟩
abbrev S64x129 : Shape := ⟨2, ![64, 129]⟩
abbrev S64 : Shape := ⟨1, ![64]⟩
abbrev S32x64 : Shape := ⟨2, ![32, 64]⟩
abbrev S32 : Shape := ⟨1, ![32]⟩
abbrev S6x32 : Shape := ⟨2, ![6, 32]⟩
abbrev S6 : Shape := ⟨1, ![6]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x32 : Shape := ⟨2, ![800000, 32]⟩
abbrev S32x128 : Shape := ⟨2, ![32, 128]⟩
abbrev S100000x128 : Shape := ⟨2, ![100000, 128]⟩
abbrev S1x128 : Shape := ⟨2, ![1, 128]⟩
abbrev S800000x128 : Shape := ⟨2, ![800000, 128]⟩
abbrev S512x128 : Shape := ⟨2, ![512, 128]⟩
abbrev S100000x1 : Shape := ⟨2, ![100000, 1]⟩
abbrev S512x129 : Shape := ⟨2, ![512, 129]⟩
abbrev S129x64 : Shape := ⟨2, ![129, 64]⟩
abbrev S512x64 : Shape := ⟨2, ![512, 64]⟩
abbrev S1x64 : Shape := ⟨2, ![1, 64]⟩
abbrev S64x32 : Shape := ⟨2, ![64, 32]⟩
abbrev S512x32 : Shape := ⟨2, ![512, 32]⟩
abbrev S1x32 : Shape := ⟨2, ![1, 32]⟩
abbrev S32x6 : Shape := ⟨2, ![32, 6]⟩
abbrev S512x6 : Shape := ⟨2, ![512, 6]⟩
abbrev S1x6 : Shape := ⟨2, ![1, 6]⟩

abbrev nBuf : Space → Nat
  | .hbm => 94
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x800000, .i32⟩
  | .hbm, ⟨2, _⟩ => ⟨S100000, .i32⟩
  | .hbm, ⟨3, _⟩ => ⟨S512x1, .f32⟩
  | .hbm, ⟨4, _⟩ => ⟨S128x32, .f32⟩
  | .hbm, ⟨5, _⟩ => ⟨S128, .f32⟩
  | .hbm, ⟨6, _⟩ => ⟨S128x32, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S64x129, .f32⟩
  | .hbm, ⟨11, _⟩ => ⟨S64, .f32⟩
  | .hbm, ⟨12, _⟩ => ⟨S32x64, .f32⟩
  | .hbm, ⟨13, _⟩ => ⟨S32, .f32⟩
  | .hbm, ⟨14, _⟩ => ⟨S6x32, .f32⟩
  | .hbm, ⟨15, _⟩ => ⟨S6, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x32, .f32⟩
  | .hbm, ⟨29, _⟩ => ⟨S_, .f32⟩
  | .hbm, ⟨30, _⟩ => ⟨S100000x32, .f32⟩
  | .hbm, ⟨31, _⟩ => ⟨S800000x1, .i32⟩
  | .hbm, ⟨32, _⟩ => ⟨S100000x32, .f32⟩
  | .hbm, ⟨33, _⟩ => ⟨S32x128, .f32⟩
  | .hbm, ⟨34, _⟩ => ⟨S100000x128, .f32⟩
  | .hbm, ⟨35, _⟩ => ⟨S1x128, .f32⟩
  | .hbm, ⟨36, _⟩ => ⟨S100000x128, .f32⟩
  | .hbm, ⟨37, _⟩ => ⟨S100000x128, .f32⟩
  | .hbm, ⟨38, _⟩ => ⟨S32x128, .f32⟩
  | .hbm, ⟨39, _⟩ => ⟨S100000x128, .f32⟩
  | .hbm, ⟨40, _⟩ => ⟨S100000x128, .f32⟩
  | .hbm, ⟨41, _⟩ => ⟨S_, .f32⟩
  | .hbm, ⟨42, _⟩ => ⟨S100000x128, .f32⟩
  | .hbm, ⟨43, _⟩ => ⟨S100000x128, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x128, .f32⟩
  | .hbm, ⟨53, _⟩ => ⟨S_, .f32⟩
  | .hbm, ⟨54, _⟩ => ⟨S100000x128, .f32⟩
  | .hbm, ⟨55, _⟩ => ⟨S800000x1, .i32⟩
  | .hbm, ⟨56, _⟩ => ⟨S100000x128, .f32⟩
  | .hbm, ⟨57, _⟩ => ⟨S128x128, .f32⟩
  | .hbm, ⟨58, _⟩ => ⟨S100000x128, .f32⟩
  | .hbm, ⟨59, _⟩ => ⟨S1x128, .f32⟩
  | .hbm, ⟨60, _⟩ => ⟨S100000x128, .f32⟩
  | .hbm, ⟨61, _⟩ => ⟨S100000x128, .f32⟩
  | .hbm, ⟨62, _⟩ => ⟨S128x128, .f32⟩
  | .hbm, ⟨63, _⟩ => ⟨S100000x128, .f32⟩
  | .hbm, ⟨64, _⟩ => ⟨S100000x128, .f32⟩
  | .hbm, ⟨65, _⟩ => ⟨S_, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S512x128, .f32⟩
  | .hbm, ⟨70, _⟩ => ⟨S100000x1, .i32⟩
  | .hbm, ⟨71, _⟩ => ⟨S512x128, .f32⟩
  | .hbm, ⟨72, _⟩ => ⟨S512x129, .f32⟩
  | .hbm, ⟨73, _⟩ => ⟨S129x64, .f32⟩
  | .hbm, ⟨74, _⟩ => ⟨S512x64, .f32⟩
  | .hbm, ⟨75, _⟩ => ⟨S1x64, .f32⟩
  | .hbm, ⟨76, _⟩ => ⟨S512x64, .f32⟩
  | .hbm, ⟨77, _⟩ => ⟨S512x64, .f32⟩
  | .hbm, ⟨78, _⟩ => ⟨S_, .f32⟩
  | .hbm, ⟨79, _⟩ => ⟨S512x64, .f32⟩
  | .hbm, ⟨80, _⟩ => ⟨S512x64, .f32⟩
  | .hbm, ⟨81, _⟩ => ⟨S64x32, .f32⟩
  | .hbm, ⟨82, _⟩ => ⟨S512x32, .f32⟩
  | .hbm, ⟨83, _⟩ => ⟨S1x32, .f32⟩
  | .hbm, ⟨84, _⟩ => ⟨S512x32, .f32⟩
  | .hbm, ⟨85, _⟩ => ⟨S512x32, .f32⟩
  | .hbm, ⟨86, _⟩ => ⟨S_, .f32⟩
  | .hbm, ⟨87, _⟩ => ⟨S512x32, .f32⟩
  | .hbm, ⟨88, _⟩ => ⟨S512x32, .f32⟩
  | .hbm, ⟨89, _⟩ => ⟨S32x6, .f32⟩
  | .hbm, ⟨90, _⟩ => ⟨S512x6, .f32⟩
  | .hbm, ⟨91, _⟩ => ⟨S1x6, .f32⟩
  | .hbm, ⟨92, _⟩ => ⟨S512x6, .f32⟩
  | .hbm, ⟨93, _⟩ => ⟨S512x6, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_call0_cst : Ref sig .tc := ⟨.hbm, 41, rfl⟩
abbrev main_call0_v0 : Ref sig .tc := ⟨.hbm, 42, rfl⟩
abbrev main_v22 : Ref sig .tc := ⟨.hbm, 43, rfl⟩
abbrev main_c_1 : Ref sig .tc := ⟨.hbm, 44, rfl⟩
abbrev main_v23 : Ref sig .tc := ⟨.hbm, 45, rfl⟩
abbrev main_v24 : Ref sig .tc := ⟨.hbm, 46, rfl⟩
abbrev main_c_2 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_3 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_call1_cst : Ref sig .tc := ⟨.hbm, 65, rfl⟩
abbrev main_call1_v0 : Ref sig .tc := ⟨.hbm, 66, rfl⟩
abbrev main_v41 : Ref sig .tc := ⟨.hbm, 67, rfl⟩
abbrev main_cst_4 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_call2_cst : Ref sig .tc := ⟨.hbm, 78, rfl⟩
abbrev main_call2_v0 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_call3_cst : Ref sig .tc := ⟨.hbm, 86, rfl⟩
abbrev main_call3_v0 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x32 : S_.BroadcastsInDim S100000x32 (![] : Fin 0 → Fin S100000x32.rank)
  transposes_S128x32_S32x128_1_0 : S128x32.Transposes [1, 0] S32x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  transposes_S128x128_S128x128_1_0 : S128x128.Transposes [1, 0] S128x128
  bcast_S_S512x128 : S_.BroadcastsInDim S512x128 (![] : Fin 0 → Fin S512x128.rank)
  bcast_S100000_S100000x1_0 : S100000.BroadcastsInDim S100000x1 (![0] : Fin 1 → Fin S100000x1.rank)
  concatenates_S512x128_S512x1_S512x129_d1 : Shape.Concatenates [S512x128, S512x1] S512x129 1
  transposes_S64x129_S129x64_1_0 : S64x129.Transposes [1, 0] S129x64
  bcast_S64_S1x64_1 : S64.BroadcastsInDim S1x64 (![1] : Fin 1 → Fin S1x64.rank)
  bcast_S1x64_S512x64_0_1 : S1x64.BroadcastsInDim S512x64 (![0, 1] : Fin 2 → Fin S512x64.rank)
  bcast_S_S512x64 : S_.BroadcastsInDim S512x64 (![] : Fin 0 → Fin S512x64.rank)
  transposes_S32x64_S64x32_1_0 : S32x64.Transposes [1, 0] S64x32
  bcast_S32_S1x32_1 : S32.BroadcastsInDim S1x32 (![1] : Fin 1 → Fin S1x32.rank)
  bcast_S1x32_S512x32_0_1 : S1x32.BroadcastsInDim S512x32 (![0, 1] : Fin 2 → Fin S512x32.rank)
  bcast_S_S512x32 : S_.BroadcastsInDim S512x32 (![] : Fin 0 → Fin S512x32.rank)
  transposes_S6x32_S32x6_1_0 : S6x32.Transposes [1, 0] S32x6
  bcast_S6_S1x6_1 : S6.BroadcastsInDim S1x6 (![1] : Fin 1 → Fin S1x6.rank)
  bcast_S1x6_S512x6_0_1 : S1x6.BroadcastsInDim S512x6 (![0, 1] : Fin 2 → Fin S512x6.rank)
  gather_S100000x32_S800000x1_S800000x32_1_0_n_n_0_1_132_wf : GatherDims.WF S100000x32 S800000x1 S800000x32 [1] [0] [] [0] [] 1 ![1, 32]
  scatter_S100000x32_S800000x1_S800000x32_1_0_0_1_wf : ScatterDims.WF S100000x32 S800000x1 S800000x32 [1] [0] [0] 1
  dot_S100000x32_S32x128_S100000x128_1_0_0_1_n_n_wf : DotDims.WF S100000x32 S32x128 S100000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S100000x128_S128x128_S100000x128_1_0_0_1_n_n_wf : DotDims.WF S100000x128 S128x128 S100000x128 [1] [0] [0] [1] [] []
  scatter_S512x128_S100000x1_S100000x128_1_0_0_1_wf : ScatterDims.WF S512x128 S100000x1 S100000x128 [1] [0] [0] 1
  dot_S512x129_S129x64_S512x64_1_0_0_1_n_n_wf : DotDims.WF S512x129 S129x64 S512x64 [1] [0] [0] [1] [] []
  dot_S512x64_S64x32_S512x32_1_0_0_1_n_n_wf : DotDims.WF S512x64 S64x32 S512x32 [1] [0] [0] [1] [] []
  dot_S512x32_S32x6_S512x6_1_0_0_1_n_n_wf : DotDims.WF S512x32 S32x6 S512x6 [1] [0] [0] [1] [] []

variable [Facts₀]

def gather_S100000x32_S800000x1_S800000x32_1_0_n_n_0_1_132 : GatherDims S100000x32 S800000x1 S800000x32 where
  offsetDims := [1]
  collapsedSliceDims := [0]
  operandBatchingDims := []
  startIndicesBatchingDims := []
  startIndexMap := [0]
  indexVectorDim := 1
  sliceSizes := ![1, 32]
  wf := gather_S100000x32_S800000x1_S800000x32_1_0_n_n_0_1_132_wf
def scatter_S100000x32_S800000x1_S800000x32_1_0_0_1 : ScatterDims S100000x32 S800000x1 S800000x32 where
  updateWindowDims := [1]
  insertedWindowDims := [0]
  scatterDimsToOperandDims := [0]
  indexVectorDim := 1
  wf := scatter_S100000x32_S800000x1_S800000x32_1_0_0_1_wf
def dot_S100000x32_S32x128_S100000x128_1_0_0_1_n_n : DotDims S100000x32 S32x128 S100000x128 where
  lhsContracting := [1]
  rhsContracting := [0]
  lhsNonContracting := [0]
  rhsNonContracting := [1]
  lhsBatch := []
  rhsBatch := []
  wf := dot_S100000x32_S32x128_S100000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x129_S129x64_S512x64_1_0_0_1_n_n : DotDims S512x129 S129x64 S512x64 where
  lhsContracting := [1]
  rhsContracting := [0]
  lhsNonContracting := [0]
  rhsNonContracting := [1]
  lhsBatch := []
  rhsBatch := []
  wf := dot_S512x129_S129x64_S512x64_1_0_0_1_n_n_wf
def dot_S512x64_S64x32_S512x32_1_0_0_1_n_n : DotDims S512x64 S64x32 S512x32 where
  lhsContracting := [1]
  rhsContracting := [0]
  lhsNonContracting := [0]
  rhsNonContracting := [1]
  lhsBatch := []
  rhsBatch := []
  wf := dot_S512x64_S64x32_S512x32_1_0_0_1_n_n_wf
def dot_S512x32_S32x6_S512x6_1_0_0_1_n_n : DotDims S512x32 S32x6 S512x6 where
  lhsContracting := [1]
  rhsContracting := [0]
  lhsNonContracting := [0]
  rhsNonContracting := [1]
  lhsBatch := []
  rhsBatch := []
  wf := dot_S512x32_S32x6_S512x6_1_0_0_1_n_n_wf

class Facts : Prop extends Facts₀ where

variable [Facts]
-- ==== Proof.KernelRun.lean ====
/-
  The kernel program's run with its final memory read back.

  @main is six segments: a stretch of host operations, a pipelined region, and so on three times.  The buffer contents at
  the segment boundaries are a fold from the launch memory: a host stretch applies its operations, a region replaces its
  output array by what its write-backs leave and keeps everything else.  Every weakly fair execution terminates, and
  in the final memory EVERY buffer that outlives a region holds the fold's last value — in particular the result
  buffer, whose value the later modules compute.
-/
import proofs.«100577_j18511309046119_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates, nothing faulting, and in the
    final memory every buffer that is not scoped to a region holds the last value of the fold through @main's
    segments: the launch over the segments, the last thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The result buffer after the run is the fold's last value at it. -/
theorem run_out : θ_run defs (onTc (τ := τ) (main (F := F))) ⟨m, fun _ => 0, ρ⟩ (fun r => ∀ c : Dev nD,
      r.2.mem ((c.tc : Thread nD τ).loc main_v42) = W6 m ρ c (Proc.devRef .tc main_v42)) :=
  (θ_run defs _ _).mono (fun r h c => h c _ (mem_uc main_v42 (by decide))) (run_all m ρ)

/-- The run with the result buffer at the fold's last value and every argument array as launched: no host operation
    and no region writes an argument. -/
theorem run_value : θ_run defs (onTc (τ := τ) (main (F := F))) ⟨m, fun _ => 0, ρ⟩ (fun r => ∀ c : Dev nD,
      r.2.mem ((c.tc : Thread nD τ).loc main_v42) = W6 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨h c _ (mem_uc main_v42 (by decide)),
      (h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c),
      (h c _ (mem_uc main_arg6 (by decide))).trans (W6_main_arg6 m ρ c),
      (h c _ (mem_uc main_arg7 (by decide))).trans (W6_main_arg7 m ρ c),
      (h c _ (mem_uc main_arg8 (by decide))).trans (W6_main_arg8 m ρ c),
      (h c _ (mem_uc main_arg9 (by decide))).trans (W6_main_arg9 m ρ c),
      (h c _ (mem_uc main_arg10 (by decide))).trans (W6_main_arg10 m ρ c),
      (h c _ (mem_uc main_arg11 (by decide))).trans (W6_main_arg11 m ρ c),
      (h c _ (mem_uc main_arg12 (by decide))).trans (W6_main_arg12 m ρ c),
      (h c _ (mem_uc main_arg13 (by decide))).trans (W6_main_arg13 m ρ c),
      (h c _ (mem_uc main_arg14 (by decide))).trans (W6_main_arg14 m ρ c),
      (h c _ (mem_uc main_arg15 (by decide))).trans (W6_main_arg15 m ρ c)⟩) (run_all m ρ)

end Cert.KernelIdeal.RunValue

end
-- ==== Proof.Spec.lean ====
/-
  The layers of the network, entry by entry, on the extended reals.

  A linear layer of an N×K matrix Z by a K×D weight W with a row bias b has, at entry (p, q), the value
  ∑ c, Z (p, c) · W (c, q) + b (0, q).  A graph-convolution layer adds two such products — one of the aggregated
  neighbour features A, one of the node's own features X — before the bias, and clamps at the zero word:
  max ((∑ c, A (p, c) · Wl (c, q) + ∑ c, X (p, c) · Wr (c, q)) + b (0, q)) 0.  The read-out is three linear layers, the
  first two clamped at the zero word.  The zero word is kept as a word: both programs clamp at the same one.
-/
import Idealize.ShloMosaic.Lib.ValueIdx
import Idealize.ShloMosaic.PureOps.Ideal

noncomputable section

namespace Cert.Spec

open Idealize.ShloMosaic Idealize.ShloMosaic.ValueIdx

/-- The value every clamp compares against: the f32 word of zero, read at the ideal values. -/
abbrev zeroWord : EReal := Ideal.ofBits .f32 0x00000000#32

/-- A bias vector [d] laid as the row [1, d]. -/
def row {d : ℕ} (x : (⟨1, ![d]⟩ : Shape).Idx → EReal) : (⟨2, ![1, d]⟩ : Shape).Idx → EReal := fun j => x (ix1 (j 1))

theorem row_ix2 {d : ℕ} (x : (⟨1, ![d]⟩ : Shape).Idx → EReal) (u : Fin 1) (q : Fin d) : row x (ix2 u q) = x (ix1 q) := rfl

/-- Entry (p, q) of the product of an N×K by a K×D matrix. -/
def dotAt {N K D : ℕ} (Z : (⟨2, ![N, K]⟩ : Shape).Idx → EReal) (W : (⟨2, ![K, D]⟩ : Shape).Idx → EReal)
    (p : Fin N) (q : Fin D) : EReal :=
  ∑ c : Fin K, Z (ix2 p c) * W (ix2 c q)

/-- A linear layer: product plus the row bias. -/
def lin {N K D : ℕ} (Z : (⟨2, ![N, K]⟩ : Shape).Idx → EReal) (W : (⟨2, ![K, D]⟩ : Shape).Idx → EReal)
    (b : (⟨2, ![1, D]⟩ : Shape).Idx → EReal) : (⟨2, ![N, D]⟩ : Shape).Idx → EReal :=
  fun i => dotAt Z W (i 0) (i 1) + b (ix2 (0 : Fin 1) (i 1))

/-- A linear layer clamped below at the zero word. -/
def reluLin {N K D : ℕ} (Z : (⟨2, ![N, K]⟩ : Shape).Idx → EReal) (W : (⟨2, ![K, D]⟩ : Shape).Idx → EReal)
    (b : (⟨2, ![1, D]⟩ : Shape).Idx → EReal) : (⟨2, ![N, D]⟩ : Shape).Idx → EReal :=
  fun i => max (lin Z W b i) zeroWord

/-- A graph-convolution layer: the aggregated features' product plus the node's own features' product, plus the row
    bias, clamped below at the zero word. -/
def sage {N K D : ℕ} (A X : (⟨2, ![N, K]⟩ : Shape).Idx → EReal) (Wl Wr : (⟨2, ![K, D]⟩ : Shape).Idx → EReal)
    (b : (⟨2, ![1, D]⟩ : Shape).Idx → EReal) : (⟨2, ![N, D]⟩ : Shape).Idx → EReal :=
  fun i => max ((dotAt A Wl (i 0) (i 1) + dotAt X Wr (i 0) (i 1)) + b (ix2 (0 : Fin 1) (i 1))) zeroWord

/-- The read-out: two clamped linear layers and a last linear one. -/
def mlp {N K H1 H2 D : ℕ} (Z : (⟨2, ![N, K]⟩ : Shape).Idx → EReal)
    (W1 : (⟨2, ![K, H1]⟩ : Shape).Idx → EReal) (b1 : (⟨2, ![1, H1]⟩ : Shape).Idx → EReal)
    (W2 : (⟨2, ![H1, H2]⟩ : Shape).Idx → EReal) (b2 : (⟨2, ![1, H2]⟩ : Shape).Idx → EReal)
    (W3 : (⟨2, ![H2, D]⟩ : Shape).Idx → EReal) (b3 : (⟨2, ![1, D]⟩ : Shape).Idx → EReal) :
    (⟨2, ![N, D]⟩ : Shape).Idx → EReal :=
  lin (reluLin (reluLin Z W1 b1) W2 b2) W3 b3

theorem lin_ix2 {N K D : ℕ} (Z : (⟨2, ![N, K]⟩ : Shape).Idx → EReal) (W : (⟨2, ![K, D]⟩ : Shape).Idx → EReal)
    (b : (⟨2, ![1, D]⟩ : Shape).Idx → EReal) (p : Fin N) (q : Fin D) :
    lin Z W b (ix2 p q) = dotAt Z W p q + b (ix2 (0 : Fin 1) q) := rfl

theorem reluLin_ix2 {N K D : ℕ} (Z : (⟨2, ![N, K]⟩ : Shape).Idx → EReal) (W : (⟨2, ![K, D]⟩ : Shape).Idx → EReal)
    (b : (⟨2, ![1, D]⟩ : Shape).Idx → EReal) (p : Fin N) (q : Fin D) :
    reluLin Z W b (ix2 p q) = max (dotAt Z W p q + b (ix2 (0 : Fin 1) q)) zeroWord := rfl

theorem sage_ix2 {N K D : ℕ} (A X : (⟨2, ![N, K]⟩ : Shape).Idx → EReal) (Wl Wr : (⟨2, ![K, D]⟩ : Shape).Idx → EReal)
    (b : (⟨2, ![1, D]⟩ : Shape).Idx → EReal) (p : Fin N) (q : Fin D) :
    sage A X Wl Wr b (ix2 p q) = max ((dotAt A Wl p q + dotAt X Wr p q) + b (ix2 (0 : Fin 1) q)) zeroWord := rfl

end Cert.Spec

end
-- ==== Proof.RowCast.lean ====
/-
  A vector reshaped to a one-row matrix is that vector laid as a row.
-/
import proofs.«100577_j18511309046119_1_alg».proof.Proof.Spec
import Idealize.ShloMosaic.Lib.Pipeline.Value
import Idealize.ShloMosaic.Lib.ValueLayout

noncomputable section

namespace Cert.Spec

open Idealize.ShloMosaic Idealize.ShloMosaic.ValueIdx

/-- A vector [d] reshaped to [1, d] is that vector laid as a row: row-major order keeps the one axis' positions. -/
theorem shapeCast_eq_row {d : ℕ} (x : (⟨1, ![d]⟩ : Shape).Idx → EReal) (h : (⟨1, ![d]⟩ : Shape).ShapeCasts ⟨2, ![1, d]⟩) :
    shapeCast ⟨2, ![1, d]⟩ x h = row x := by
  funext j
  obtain ⟨u, q, rfl⟩ : ∃ (u : Fin 1) (q : Fin d), j = ix2 u q := ⟨j 0, j 1, eq_ix2 j⟩
  rw [shapeCast_a_1a_apply, row_ix2]

end Cert.Spec

end
-- ==== Proof.Stretch0.lean ====
/-
  The host operations before the first region, read against the reference's stages.

  Both programs open with the same host operations: the two rows of the edge list, the wrap of negative source indices,
  the gather of the source rows and their scatter-add into the destination rows (the neighbourhood sums of the input
  features), and the transposes of the first layer's weights.  From ANY buffer contents W the kernel program's stretch
  leaves, at each buffer the first region reads, exactly the reference's stage of W's argument arrays; the bias vector
  reshaped to a row is the row the specification takes.  Buffers the stretch does not write keep their contents.
-/
import proofs.«100577_j18511309046119_1_alg».proof.Proof.Gen.KernelIdeal.Frame
import proofs.«100577_j18511309046119_1_alg».proof.Proof.Gen.ReferenceIdeal.Read
import proofs.«100577_j18511309046119_1_alg».proof.Proof.Spec
import proofs.«100577_j18511309046119_1_alg».proof.Proof.RowCast
import Idealize.ShloMosaic.Lib.StableHlo.Run
import Idealize.ShloMosaic.Lib.ValueLayout

noncomputable section

namespace Cert.Bridge.Stretch0

open Cert.KernelIdeal Cert.KernelIdeal.Gen Idealize.ShloMosaic Idealize.ShloMosaic.TcCoe Idealize.SL.Sem Idealize.ShloMosaic.StableHlo
open Idealize.ShloMosaic.ValueIdx
open Cert.ReferenceIdeal.Read

variable (W : Valuation τ sig (Elt Ideal))

/-- The neighbourhood sums of the input features. -/
theorem agg : after (hostOps0 (F := Ideal)) W (Proc.devRef .tc main_v13)
    = val_main_v13 (F := Ideal) (W (Proc.devRef .tc main_arg0)) (W (Proc.devRef .tc main_arg1)) := by
  after_results
  rfl

/-- The first layer's two weights, transposed. -/
theorem wl : after (hostOps0 (F := Ideal)) W (Proc.devRef .tc main_v14) = val_main_v14 (F := Ideal) (W (Proc.devRef .tc main_arg4)) := by
  after_results
  rfl
theorem wr : after (hostOps0 (F := Ideal)) W (Proc.devRef .tc main_v15) = val_main_v19 (F := Ideal) (W (Proc.devRef .tc main_arg6)) := by
  after_results
  rfl

/-- The first layer's bias as a row. -/
theorem bias : after (hostOps0 (F := Ideal)) W (Proc.devRef .tc main_v16) = Cert.Spec.row (W (Proc.devRef .tc main_arg5)) := by
  after_results
  exact Cert.Spec.shapeCast_eq_row _ _

/-- The source and destination rows of the edge list. -/
theorem src : after (hostOps0 (F := Ideal)) W (Proc.devRef .tc main_v1) = val_main_v1 (F := Ideal) (W (Proc.devRef .tc main_arg1)) := by
  after_results
  rfl
theorem dst : after (hostOps0 (F := Ideal)) W (Proc.devRef .tc main_v3) = val_main_v3 (F := Ideal) (W (Proc.devRef .tc main_arg1)) := by
  after_results
  rfl

/-- The arguments the later segments read are not written here. -/
theorem arg0 : after (hostOps0 (F := Ideal)) W (Proc.devRef .tc main_arg0) = W (Proc.devRef .tc main_arg0) := by after_results
theorem arg2 : after (hostOps0 (F := Ideal)) W (Proc.devRef .tc main_arg2) = W (Proc.devRef .tc main_arg2) := by after_results
theorem arg3 : after (hostOps0 (F := Ideal)) W (Proc.devRef .tc main_arg3) = W (Proc.devRef .tc main_arg3) := by after_results
theorem arg7 : after (hostOps0 (F := Ideal)) W (Proc.devRef .tc main_arg7) = W (Proc.devRef .tc main_arg7) := by after_results
theorem arg8 : after (hostOps0 (F := Ideal)) W (Proc.devRef .tc main_arg8) = W (Proc.devRef .tc main_arg8) := by after_results
theorem arg9 : after (hostOps0 (F := Ideal)) W (Proc.devRef .tc main_arg9) = W (Proc.devRef .tc main_arg9) := by after_results
theorem arg10 : after (hostOps0 (F := Ideal)) W (Proc.devRef .tc main_arg10) = W (Proc.devRef .tc main_arg10) := by after_results
theorem arg11 : after (hostOps0 (F := Ideal)) W (Proc.devRef .tc main_arg11) = W (Proc.devRef .tc main_arg11) := by after_results
theorem arg12 : after (hostOps0 (F := Ideal)) W (Proc.devRef .tc main_arg12) = W (Proc.devRef .tc main_arg12) := by after_results
theorem arg13 : after (hostOps0 (F := Ideal)) W (Proc.devRef .tc main_arg13) = W (Proc.devRef .tc main_arg13) := by after_results
theorem arg14 : after (hostOps0 (F := Ideal)) W (Proc.devRef .tc main_arg14) = W (Proc.devRef .tc main_arg14) := by after_results
theorem arg15 : after (hostOps0 (F := Ideal)) W (Proc.devRef .tc main_arg15) = W (Proc.devRef .tc main_arg15) := by after_results

end Cert.Bridge.Stretch0

end
-- ==== Proof.Stretch1.lean ====
/-
  The host operations between the first and the second region, read against the reference's stages.

  The same gather and scatter-add as before the first region, now of the first layer's result: from buffer contents W
  that hold the first layer's result and the two rows of the edge list, the stretch leaves the neighbourhood sums of
  that result — the reference's stage of the same name — and the second layer's transposed weights and bias row.
-/
import proofs.«100577_j18511309046119_1_alg».proof.Proof.Gen.KernelIdeal.Frame
import proofs.«100577_j18511309046119_1_alg».proof.Proof.Gen.ReferenceIdeal.Read
import proofs.«100577_j18511309046119_1_alg».proof.Proof.Spec
import proofs.«100577_j18511309046119_1_alg».proof.Proof.RowCast
import Idealize.ShloMosaic.Lib.StableHlo.Run
import Idealize.ShloMosaic.Lib.ValueLayout

noncomputable section

namespace Cert.Bridge.Stretch1

open Cert.KernelIdeal Cert.KernelIdeal.Gen Idealize.ShloMosaic Idealize.ShloMosaic.TcCoe Idealize.SL.Sem Idealize.ShloMosaic.StableHlo
open Idealize.ShloMosaic.ValueIdx
open Cert.ReferenceIdeal.Read

variable (W : Valuation τ sig (Elt Ideal))

/-- The neighbourhood sums of the first layer's result. -/
theorem agg (x0 : (⟨S100000x32, .f32⟩ : BufTy).Contents (Elt Ideal)) (x1 : (⟨S2x800000, .i32⟩ : BufTy).Contents (Elt Ideal)) (x4 : (⟨S128x32, .f32⟩ : BufTy).Contents (Elt Ideal))
    (x5 : (⟨S128, .f32⟩ : BufTy).Contents (Elt Ideal)) (x6 : (⟨S128x32, .f32⟩ : BufTy).Contents (Elt Ideal))
    (h17 : W (Proc.devRef .tc main_v17) = val_main_v22 (F := Ideal) x0 x1 x4 x5 x6)
    (h1 : W (Proc.devRef .tc main_v1) = val_main_v1 (F := Ideal) x1)
    (h3 : W (Proc.devRef .tc main_v3) = val_main_v3 (F := Ideal) x1) :
    after (hostOps1 (F := Ideal)) W (Proc.devRef .tc main_v27) = val_main_v32 (F := Ideal) x0 x1 x4 x5 x6 := by
  after_results
  rw [h17, h1, h3]
  rfl

/-- The first layer's result is not written here. -/
theorem own : after (hostOps1 (F := Ideal)) W (Proc.devRef .tc main_v17) = W (Proc.devRef .tc main_v17) := by after_results

/-- The second layer's two weights, transposed, and its bias as a row. -/
theorem wl : after (hostOps1 (F := Ideal)) W (Proc.devRef .tc main_v28) = val_main_v33 (F := Ideal) (W (Proc.devRef .tc main_arg7)) := by
  after_results
  rfl
theorem wr : after (hostOps1 (F := Ideal)) W (Proc.devRef .tc main_v29) = val_main_v38 (F := Ideal) (W (Proc.devRef .tc main_arg9)) := by
  after_results
  rfl
theorem bias : after (hostOps1 (F := Ideal)) W (Proc.devRef .tc main_v30) = Cert.Spec.row (W (Proc.devRef .tc main_arg8)) := by
  after_results
  exact Cert.Spec.shapeCast_eq_row _ _

/-- The arguments the later segments read are not written here. -/
theorem arg2 : after (hostOps1 (F := Ideal)) W (Proc.devRef .tc main_arg2) = W (Proc.devRef .tc main_arg2) := by after_results
theorem arg3 : after (hostOps1 (F := Ideal)) W (Proc.devRef .tc main_arg3) = W (Proc.devRef .tc main_arg3) := by after_results
theorem arg10 : after (hostOps1 (F := Ideal)) W (Proc.devRef .tc main_arg10) = W (Proc.devRef .tc main_arg10) := by after_results
theorem arg11 : after (hostOps1 (F := Ideal)) W (Proc.devRef .tc main_arg11) = W (Proc.devRef .tc main_arg11) := by after_results
theorem arg12 : after (hostOps1 (F := Ideal)) W (Proc.devRef .tc main_arg12) = W (Proc.devRef .tc main_arg12) := by after_results
theorem arg13 : after (hostOps1 (F := Ideal)) W (Proc.devRef .tc main_arg13) = W (Proc.devRef .tc main_arg13) := by after_results
theorem arg14 : after (hostOps1 (F := Ideal)) W (Proc.devRef .tc main_arg14) = W (Proc.devRef .tc main_arg14) := by after_results
theorem arg15 : after (hostOps1 (F := Ideal)) W (Proc.devRef .tc main_arg15) = W (Proc.devRef .tc main_arg15) := by after_results

end Cert.Bridge.Stretch1

end
-- ==== Proof.Stretch2.lean ====
/-
  The host operations between the second and the third region, read against the reference's stages.

  The second layer's result is summed per graph (a scatter-add along the graph index of each node) and the per-graph
  feature is joined to it as one more column: from buffer contents W that hold the second layer's result the stretch
  leaves the reference's stage of the same name, with the read-out's transposed weights and bias rows.
-/
import proofs.«100577_j18511309046119_1_alg».proof.Proof.Gen.KernelIdeal.Frame
import proofs.«100577_j18511309046119_1_alg».proof.Proof.Gen.ReferenceIdeal.Read
import proofs.«100577_j18511309046119_1_alg».proof.Proof.Spec
import proofs.«100577_j18511309046119_1_alg».proof.Proof.RowCast
import Idealize.ShloMosaic.Lib.StableHlo.Run
import Idealize.ShloMosaic.Lib.ValueLayout

noncomputable section

namespace Cert.Bridge.Stretch2

open Cert.KernelIdeal Cert.KernelIdeal.Gen Idealize.ShloMosaic Idealize.ShloMosaic.TcCoe Idealize.SL.Sem Idealize.ShloMosaic.StableHlo
open Idealize.ShloMosaic.ValueIdx
open Cert.ReferenceIdeal.Read

variable (W : Valuation τ sig (Elt Ideal))

/-- The pooled features with the per-graph column joined. -/
theorem pooled (x0 : (⟨S100000x32, .f32⟩ : BufTy).Contents (Elt Ideal)) (x1 : (⟨S2x800000, .i32⟩ : BufTy).Contents (Elt Ideal)) (x4 : (⟨S128x32, .f32⟩ : BufTy).Contents (Elt Ideal))
    (x5 : (⟨S128, .f32⟩ : BufTy).Contents (Elt Ideal)) (x6 : (⟨S128x32, .f32⟩ : BufTy).Contents (Elt Ideal)) (x7 : (⟨S128x128, .f32⟩ : BufTy).Contents (Elt Ideal)) (x8 : (⟨S128, .f32⟩ : BufTy).Contents (Elt Ideal))
    (x9 : (⟨S128x128, .f32⟩ : BufTy).Contents (Elt Ideal))
    (h31 : W (Proc.devRef .tc main_v31) = val_main_v41 (F := Ideal) x0 x1 x4 x5 x6 x7 x8 x9) :
    after (hostOps2 (F := Ideal)) W (Proc.devRef .tc main_v35)
      = val_main_v45 (F := Ideal) x0 x1 (W (Proc.devRef .tc main_arg2)) (W (Proc.devRef .tc main_arg3)) x4 x5 x6 x7 x8 x9 := by
  after_results
  rw [h31]
  rfl

/-- The read-out's three weights, transposed. -/
theorem w1 : after (hostOps2 (F := Ideal)) W (Proc.devRef .tc main_v36) = val_main_v46 (F := Ideal) (W (Proc.devRef .tc main_arg10)) := by
  after_results
  rfl
theorem w2 : after (hostOps2 (F := Ideal)) W (Proc.devRef .tc main_v37) = val_main_v52 (F := Ideal) (W (Proc.devRef .tc main_arg12)) := by
  after_results
  rfl
theorem w3 : after (hostOps2 (F := Ideal)) W (Proc.devRef .tc main_v38) = val_main_v58 (F := Ideal) (W (Proc.devRef .tc main_arg14)) := by
  after_results
  rfl

/-- The read-out's three biases as rows. -/
theorem b1 : after (hostOps2 (F := Ideal)) W (Proc.devRef .tc main_v39) = Cert.Spec.row (W (Proc.devRef .tc main_arg11)) := by
  after_results
  exact Cert.Spec.shapeCast_eq_row _ _
theorem b2 : after (hostOps2 (F := Ideal)) W (Proc.devRef .tc main_v40) = Cert.Spec.row (W (Proc.devRef .tc main_arg13)) := by
  after_results
  exact Cert.Spec.shapeCast_eq_row _ _
theorem b3 : after (hostOps2 (F := Ideal)) W (Proc.devRef .tc main_v41) = Cert.Spec.row (W (Proc.devRef .tc main_arg15)) := by
  after_results
  exact Cert.Spec.shapeCast_eq_row _ _

end Cert.Bridge.Stretch2

end
-- ==== Proof.ReferenceStages.lean ====
import proofs.«100577_j18511309046119_1_alg».proof.Proof.Gen.ReferenceIdeal.Read
import proofs.«100577_j18511309046119_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section
namespace Cert.ReferenceIdeal.Stages
open Cert.ReferenceIdeal Cert.ReferenceIdeal.Gen Cert.ReferenceIdeal.Read Idealize.ShloMosaic Idealize.ShloMosaic.TcCoe Idealize.SL.Sem Idealize.ShloMosaic.ValueIdx
open Cert.Spec (row)

variable (x0 : (⟨S100000x32, .f32⟩ : BufTy).Contents (Elt Ideal)) (x1 : (⟨S2x800000, .i32⟩ : BufTy).Contents (Elt Ideal))
  (x2 : (⟨S100000, .i32⟩ : BufTy).Contents (Elt Ideal)) (x3 : (⟨S512x1, .f32⟩ : BufTy).Contents (Elt Ideal))
  (x4 : (⟨S128x32, .f32⟩ : BufTy).Contents (Elt Ideal)) (x5 : (⟨S128, .f32⟩ : BufTy).Contents (Elt Ideal))
  (x6 : (⟨S128x32, .f32⟩ : BufTy).Contents (Elt Ideal)) (x7 : (⟨S128x128, .f32⟩ : BufTy).Contents (Elt Ideal))
  (x8 : (⟨S128, .f32⟩ : BufTy).Contents (Elt Ideal)) (x9 : (⟨S128x128, .f32⟩ : BufTy).Contents (Elt Ideal))
  (x10 : (⟨S64x129, .f32⟩ : BufTy).Contents (Elt Ideal)) (x11 : (⟨S64, .f32⟩ : BufTy).Contents (Elt Ideal))
  (x12 : (⟨S32x64, .f32⟩ : BufTy).Contents (Elt Ideal)) (x13 : (⟨S32, .f32⟩ : BufTy).Contents (Elt Ideal))
  (x14 : (⟨S6x32, .f32⟩ : BufTy).Contents (Elt Ideal)) (x15 : (⟨S6, .f32⟩ : BufTy).Contents (Elt Ideal))

/-
  The reference's three layers, each read as the shared specification.

  Every layer is a matrix product plus a row bias. Entry (p, q) of a product of an N×K by a K×D matrix is the sum over
  the contracted coordinate c of Z (p, c) · W (c, q); the bias vector, laid as a row and repeated down the rows, is read
  at the column q; a clamp compares with the zero word, which is kept as a word. The graph-convolution layers add two
  products and a bias: the reference computes (A·Wl + b) + X·Wr where the specification has (A·Wl + X·Wr) + b, and the
  two agree by commutativity and associativity of addition on the extended reals. Nothing here needs finiteness. The
  aggregated and pooled features, and the transposed weights, stay as named operands.
-/

/-- The first graph-convolution layer. The reference adds the bias between the two products; the specification adds
    it last: the two agree by commutativity of addition on the extended reals. -/
theorem layer0 : val_main_v22 (F := Ideal) x0 x1 x4 x5 x6
    = Cert.Spec.sage (val_main_v13 (F := Ideal) x0 x1) x0 (val_main_v14 (F := Ideal) x4) (val_main_v19 (F := Ideal) x6) (row x5) := by
  funext i
  obtain ⟨p, q, rfl⟩ : ∃ (p : Fin 100000) (q : Fin 128), i = ix2 p q := ⟨i 0, i 1, eq_ix2 i⟩
  rw [val_main_v22_apply, val_main_v21_apply, val_main_v18_apply, val_main_v15_apply, val_main_v17_apply,
    val_main_v16_apply, val_main_v20_apply, val_main_call0_v0_apply, val_main_call0_cst_apply]
  -- entry (p, q) of a product reads row p of the left factor and column q of the right one
  have el15 : ∀ k : Fin 32, lidx_main_v15 (ix2 p q) k = ix2 p k := fun k =>
    funext fun a => Fin.ext (by match a with | ⟨0, _⟩ => rfl | ⟨1, _⟩ => rfl)
  have er15 : ∀ k : Fin 32, ridx_main_v15 (ix2 p q) k = ix2 k q := fun k =>
    funext fun a => Fin.ext (by match a with | ⟨0, _⟩ => rfl | ⟨1, _⟩ => rfl)
  have el20 : ∀ k : Fin 32, lidx_main_v20 (ix2 p q) k = ix2 p k := fun k =>
    funext fun a => Fin.ext (by match a with | ⟨0, _⟩ => rfl | ⟨1, _⟩ => rfl)
  have er20 : ∀ k : Fin 32, ridx_main_v20 (ix2 p q) k = ix2 k q := fun k =>
    funext fun a => Fin.ext (by match a with | ⟨0, _⟩ => rfl | ⟨1, _⟩ => rfl)
  -- the bias vector broadcast to every row is read at the column q
  have eb : idx_main_v16 (idx_main_v17 (ix2 p q)) = ix1 q :=
    funext fun a => Fin.ext (by match a with | ⟨0, _⟩ => rfl)
  simp only [el15, er15, el20, er20, eb, Ideal.addf_def, Ideal.maximumf_def, Ideal.ofBits_def]
  -- (A·Wl + b) + X·Wr = (A·Wl + X·Wr) + b
  rw [Cert.Spec.sage_ix2, Cert.Spec.row_ix2, add_right_comm]
  rfl

/-- The second graph-convolution layer, of the aggregated and the own first-layer features; the same law. -/
theorem layer1 : val_main_v41 (F := Ideal) x0 x1 x4 x5 x6 x7 x8 x9
    = Cert.Spec.sage (val_main_v32 (F := Ideal) x0 x1 x4 x5 x6) (val_main_v22 (F := Ideal) x0 x1 x4 x5 x6)
        (val_main_v33 (F := Ideal) x7) (val_main_v38 (F := Ideal) x9) (row x8) := by
  funext i
  obtain ⟨p, q, rfl⟩ : ∃ (p : Fin 100000) (q : Fin 128), i = ix2 p q := ⟨i 0, i 1, eq_ix2 i⟩
  rw [val_main_v41_apply, val_main_v40_apply, val_main_v37_apply, val_main_v34_apply, val_main_v36_apply,
    val_main_v35_apply, val_main_v39_apply, val_main_call1_v0_apply, val_main_call1_cst_apply]
  have el34 : ∀ k : Fin 128, lidx_main_v34 (ix2 p q) k = ix2 p k := fun k =>
    funext fun a => Fin.ext (by match a with | ⟨0, _⟩ => rfl | ⟨1, _⟩ => rfl)
  have er34 : ∀ k : Fin 128, ridx_main_v34 (ix2 p q) k = ix2 k q := fun k =>
    funext fun a => Fin.ext (by match a with | ⟨0, _⟩ => rfl | ⟨1, _⟩ => rfl)
  have el39 : ∀ k : Fin 128, lidx_main_v39 (ix2 p q) k = ix2 p k := fun k =>
    funext fun a => Fin.ext (by match a with | ⟨0, _⟩ => rfl | ⟨1, _⟩ => rfl)
  have er39 : ∀ k : Fin 128, ridx_main_v39 (ix2 p q) k = ix2 k q := fun k =>
    funext fun a => Fin.ext (by match a with | ⟨0, _⟩ => rfl | ⟨1, _⟩ => rfl)
  have eb : idx_main_v35 (idx_main_v36 (ix2 p q)) = ix1 q :=
    funext fun a => Fin.ext (by match a with | ⟨0, _⟩ => rfl)
  simp only [el34, er34, el39, er39, eb, Ideal.addf_def, Ideal.maximumf_def, Ideal.ofBits_def]
  rw [Cert.Spec.sage_ix2, Cert.Spec.row_ix2, add_right_comm]
  rfl

/-- The read-out's first hidden layer, as a whole array: the pooled features times the first weight, plus the row
    bias, clamped at the zero word. -/
theorem hidden1 : val_main_v51 (F := Ideal) x0 x1 x2 x3 x4 x5 x6 x7 x8 x9 x10 x11
    = Cert.Spec.reluLin (val_main_v45 (F := Ideal) x0 x1 x2 x3 x4 x5 x6 x7 x8 x9) (val_main_v46 (F := Ideal) x10) (row x11) := by
  funext i
  obtain ⟨p, q, rfl⟩ : ∃ (p : Fin 512) (q : Fin 64), i = ix2 p q := ⟨i 0, i 1, eq_ix2 i⟩
  rw [val_main_v51_apply, val_main_v50_apply, val_main_v47_apply, val_main_v49_apply, val_main_v48_apply,
    val_main_call2_v0_apply, val_main_call2_cst_apply]
  have el : ∀ k : Fin 129, lidx_main_v47 (ix2 p q) k = ix2 p k := fun k =>
    funext fun a => Fin.ext (by match a with | ⟨0, _⟩ => rfl | ⟨1, _⟩ => rfl)
  have er : ∀ k : Fin 129, ridx_main_v47 (ix2 p q) k = ix2 k q := fun k =>
    funext fun a => Fin.ext (by match a with | ⟨0, _⟩ => rfl | ⟨1, _⟩ => rfl)
  have eb : idx_main_v48 (idx_main_v49 (ix2 p q)) = ix1 q :=
    funext fun a => Fin.ext (by match a with | ⟨0, _⟩ => rfl)
  simp only [el, er, eb, Ideal.addf_def, Ideal.maximumf_def, Ideal.ofBits_def]
  rw [Cert.Spec.reluLin_ix2, Cert.Spec.row_ix2]
  rfl

/-- The read-out's second hidden layer, as a whole array, of the first hidden layer. -/
theorem hidden2 : val_main_v57 (F := Ideal) x0 x1 x2 x3 x4 x5 x6 x7 x8 x9 x10 x11 x12 x13
    = Cert.Spec.reluLin (val_main_v51 (F := Ideal) x0 x1 x2 x3 x4 x5 x6 x7 x8 x9 x10 x11) (val_main_v52 (F := Ideal) x12) (row x13) := by
  funext i
  obtain ⟨p, q, rfl⟩ : ∃ (p : Fin 512) (q : Fin 32), i = ix2 p q := ⟨i 0, i 1, eq_ix2 i⟩
  rw [val_main_v57_apply, val_main_v56_apply, val_main_v53_apply, val_main_v55_apply, val_main_v54_apply,
    val_main_call3_v0_apply, val_main_call3_cst_apply]
  have el : ∀ k : Fin 64, lidx_main_v53 (ix2 p q) k = ix2 p k := fun k =>
    funext fun a => Fin.ext (by match a with | ⟨0, _⟩ => rfl | ⟨1, _⟩ => rfl)
  have er : ∀ k : Fin 64, ridx_main_v53 (ix2 p q) k = ix2 k q := fun k =>
    funext fun a => Fin.ext (by match a with | ⟨0, _⟩ => rfl | ⟨1, _⟩ => rfl)
  have eb : idx_main_v54 (idx_main_v55 (ix2 p q)) = ix1 q :=
    funext fun a => Fin.ext (by match a with | ⟨0, _⟩ => rfl)
  simp only [el, er, eb, Ideal.addf_def, Ideal.maximumf_def, Ideal.ofBits_def]
  rw [Cert.Spec.reluLin_ix2, Cert.Spec.row_ix2]
  rfl

/-- The read-out's last layer, linear with no clamp, of the second hidden layer. -/
theorem outputLayer : val_main_v62 (F := Ideal) x0 x1 x2 x3 x4 x5 x6 x7 x8 x9 x10 x11 x12 x13 x14 x15
    = Cert.Spec.lin (val_main_v57 (F := Ideal) x0 x1 x2 x3 x4 x5 x6 x7 x8 x9 x10 x11 x12 x13) (val_main_v58 (F := Ideal) x14) (row x15) := by
  funext i
  obtain ⟨p, q, rfl⟩ : ∃ (p : Fin 512) (q : Fin 6), i = ix2 p q := ⟨i 0, i 1, eq_ix2 i⟩
  rw [val_main_v62_apply, val_main_v59_apply, val_main_v61_apply, val_main_v60_apply]
  have el : ∀ k : Fin 32, lidx_main_v59 (ix2 p q) k = ix2 p k := fun k =>
    funext fun a => Fin.ext (by match a with | ⟨0, _⟩ => rfl | ⟨1, _⟩ => rfl)
  have er : ∀ k : Fin 32, ridx_main_v59 (ix2 p q) k = ix2 k q := fun k =>
    funext fun a => Fin.ext (by match a with | ⟨0, _⟩ => rfl | ⟨1, _⟩ => rfl)
  have eb : idx_main_v60 (idx_main_v61 (ix2 p q)) = ix1 q :=
    funext fun a => Fin.ext (by match a with | ⟨0, _⟩ => rfl)
  simp only [el, er, eb, Ideal.addf_def]
  rw [Cert.Spec.lin_ix2, Cert.Spec.row_ix2]
  rfl

/-- The read-out is the three layers composed. -/
theorem readout : val_main_v62 (F := Ideal) x0 x1 x2 x3 x4 x5 x6 x7 x8 x9 x10 x11 x12 x13 x14 x15
    = Cert.Spec.mlp (val_main_v45 (F := Ideal) x0 x1 x2 x3 x4 x5 x6 x7 x8 x9) (val_main_v46 (F := Ideal) x10) (row x11)
        (val_main_v52 (F := Ideal) x12) (row x13) (val_main_v58 (F := Ideal) x14) (row x15) := by
  rw [outputLayer, hidden2, hidden1]
  rfl

end Cert.ReferenceIdeal.Stages
end
-- ==== Proof.KernelValue.lean ====
/-
  The kernel program's result buffer, followed back through @main's segments to the argument arrays.

  The contents at the segment boundaries are a fold: a host stretch applies its operations, a region replaces its output
  array by its layer of the arrays it reads and keeps every other buffer.  Going forward from the launch memory m:
  the first stretch leaves the neighbourhood sums of the input features — the reference's stage —, so the first region
  leaves the first graph-convolution layer, which IS the reference's stage of the same arguments; the second stretch then
  leaves the neighbourhood sums of that, the second region the second layer, the third stretch the pooled features with
  the per-graph column, and the third region the read-out: the reference's result as a function of the argument arrays.
  The three regions' layers are taken as hypotheses here (hconv0, hconv1, hreadout), proved in their own modules.
-/
import proofs.«100577_j18511309046119_1_alg».proof.Proof.Gen.KernelIdeal.Frame
import proofs.«100577_j18511309046119_1_alg».proof.Proof.Gen.ReferenceIdeal.Read
import proofs.«100577_j18511309046119_1_alg».proof.Proof.Spec
import proofs.«100577_j18511309046119_1_alg».proof.Proof.Stretch0
import proofs.«100577_j18511309046119_1_alg».proof.Proof.Stretch1
import proofs.«100577_j18511309046119_1_alg».proof.Proof.Stretch2
import proofs.«100577_j18511309046119_1_alg».proof.Proof.ReferenceStages

noncomputable section

namespace Cert.Bridge

open Cert.KernelIdeal Cert.KernelIdeal.Gen Idealize.ShloMosaic Idealize.ShloMosaic.TcCoe Idealize.SL.Sem Idealize.ShloMosaic.StableHlo
open Cert.ReferenceIdeal.Read

/-- What a graph-convolution region leaves in its output array: the layer of the arrays it finds. -/
abbrev Conv0 : Prop := ∀ (V : (c : Dev nD) → (b : Ref sig .tc) → Buf (Elt Ideal) ((c : Thread nD τ).loc b)) (c : Dev nD),
  (dat0 (F := Ideal) V c).arrAt 5 cfg0.N = Cert.Spec.sage (V c main_v13) (V c main_arg0) (V c main_v14) (V c main_v15) (V c main_v16)
abbrev Conv1 : Prop := ∀ (V : (c : Dev nD) → (b : Ref sig .tc) → Buf (Elt Ideal) ((c : Thread nD τ).loc b)) (c : Dev nD),
  (dat1 (F := Ideal) V c).arrAt 5 cfg1.N = Cert.Spec.sage (V c main_v27) (V c main_v17) (V c main_v28) (V c main_v29) (V c main_v30)
/-- What the read-out region leaves in its output array. -/
abbrev Readout : Prop := ∀ (V : (c : Dev nD) → (b : Ref sig .tc) → Buf (Elt Ideal) ((c : Thread nD τ).loc b)) (c : Dev nD),
  (dat2 (F := Ideal) V c).arrAt 7 cfg2.N = Cert.Spec.mlp (V c main_v35) (V c main_v36) (V c main_v39) (V c main_v37) (V c main_v40) (V c main_v38) (V c main_v41)

variable (m : (ℓ : Loc nD τ sig) → Buf (Elt Ideal) ℓ) (ρ : Dev nD → PrngReg) (c : Dev nD)

/-! ## After the first region -/

/-- The first region's output array is the reference's first layer of the argument arrays. -/
theorem layer0_2 (hconv0 : Conv0) : W2 m ρ c (Proc.devRef .tc main_v17) = val_main_v22 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) := by
  refine (W2_arr m ρ c 5).trans ((hconv0 (V1 m ρ) c).trans ?_)
  rw [show V1 m ρ c main_v13 = _ from Stretch0.agg (W0 m ρ c), show V1 m ρ c main_arg0 = _ from Stretch0.arg0 (W0 m ρ c),
    show V1 m ρ c main_v14 = _ from Stretch0.wl (W0 m ρ c), show V1 m ρ c main_v15 = _ from Stretch0.wr (W0 m ρ c),
    show V1 m ρ c main_v16 = _ from Stretch0.bias (W0 m ρ c)]
  exact (Cert.ReferenceIdeal.Stages.layer0 _ _ _ _ _).symm

/-- The two rows of the edge list pass the first region unchanged. -/
theorem src_2 : W2 m ρ c (Proc.devRef .tc main_v1) = val_main_v1 (F := Ideal) (m ((c.tc : Thread nD τ).loc main_arg1)) :=
  (W2_of_ne m ρ c main_v1 (by decide)).trans (Stretch0.src (W0 m ρ c))
theorem dst_2 : W2 m ρ c (Proc.devRef .tc main_v3) = val_main_v3 (F := Ideal) (m ((c.tc : Thread nD τ).loc main_arg1)) :=
  (W2_of_ne m ρ c main_v3 (by decide)).trans (Stretch0.dst (W0 m ρ c))

theorem arg2_2 : W2 m ρ c (Proc.devRef .tc main_arg2) = (m ((c.tc : Thread nD τ).loc main_arg2)) :=
  (W2_of_ne m ρ c main_arg2 (by decide)).trans (Stretch0.arg2 (W0 m ρ c))
theorem arg3_2 : W2 m ρ c (Proc.devRef .tc main_arg3) = (m ((c.tc : Thread nD τ).loc main_arg3)) :=
  (W2_of_ne m ρ c main_arg3 (by decide)).trans (Stretch0.arg3 (W0 m ρ c))
theorem arg7_2 : W2 m ρ c (Proc.devRef .tc main_arg7) = (m ((c.tc : Thread nD τ).loc main_arg7)) :=
  (W2_of_ne m ρ c main_arg7 (by decide)).trans (Stretch0.arg7 (W0 m ρ c))
theorem arg8_2 : W2 m ρ c (Proc.devRef .tc main_arg8) = (m ((c.tc : Thread nD τ).loc main_arg8)) :=
  (W2_of_ne m ρ c main_arg8 (by decide)).trans (Stretch0.arg8 (W0 m ρ c))
theorem arg9_2 : W2 m ρ c (Proc.devRef .tc main_arg9) = (m ((c.tc : Thread nD τ).loc main_arg9)) :=
  (W2_of_ne m ρ c main_arg9 (by decide)).trans (Stretch0.arg9 (W0 m ρ c))
theorem arg10_2 : W2 m ρ c (Proc.devRef .tc main_arg10) = (m ((c.tc : Thread nD τ).loc main_arg10)) :=
  (W2_of_ne m ρ c main_arg10 (by decide)).trans (Stretch0.arg10 (W0 m ρ c))
theorem arg11_2 : W2 m ρ c (Proc.devRef .tc main_arg11) = (m ((c.tc : Thread nD τ).loc main_arg11)) :=
  (W2_of_ne m ρ c main_arg11 (by decide)).trans (Stretch0.arg11 (W0 m ρ c))
theorem arg12_2 : W2 m ρ c (Proc.devRef .tc main_arg12) = (m ((c.tc : Thread nD τ).loc main_arg12)) :=
  (W2_of_ne m ρ c main_arg12 (by decide)).trans (Stretch0.arg12 (W0 m ρ c))
theorem arg13_2 : W2 m ρ c (Proc.devRef .tc main_arg13) = (m ((c.tc : Thread nD τ).loc main_arg13)) :=
  (W2_of_ne m ρ c main_arg13 (by decide)).trans (Stretch0.arg13 (W0 m ρ c))
theorem arg14_2 : W2 m ρ c (Proc.devRef .tc main_arg14) = (m ((c.tc : Thread nD τ).loc main_arg14)) :=
  (W2_of_ne m ρ c main_arg14 (by decide)).trans (Stretch0.arg14 (W0 m ρ c))
theorem arg15_2 : W2 m ρ c (Proc.devRef .tc main_arg15) = (m ((c.tc : Thread nD τ).loc main_arg15)) :=
  (W2_of_ne m ρ c main_arg15 (by decide)).trans (Stretch0.arg15 (W0 m ρ c))

/-! ## After the second region -/

/-- The second region's output array is the reference's second layer of the argument arrays. -/
theorem layer1_4 (hconv0 : Conv0) (hconv1 : Conv1) :
    W4 m ρ c (Proc.devRef .tc main_v31) = val_main_v41 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (W4_arr m ρ c 5).trans ((hconv1 (V3 m ρ) c).trans ?_)
  rw [show V3 m ρ c main_v27 = _ from Stretch1.agg (W2 m ρ c) _ _ _ _ _ (layer0_2 m ρ c hconv0) (src_2 m ρ c) (dst_2 m ρ c),
    show V3 m ρ c main_v17 = _ from (Stretch1.own (W2 m ρ c)).trans (layer0_2 m ρ c hconv0),
    show V3 m ρ c main_v28 = _ from (Stretch1.wl (W2 m ρ c)).trans (congrArg _ (arg7_2 m ρ c)),
    show V3 m ρ c main_v29 = _ from (Stretch1.wr (W2 m ρ c)).trans (congrArg _ (arg9_2 m ρ c)),
    show V3 m ρ c main_v30 = _ from (Stretch1.bias (W2 m ρ c)).trans (congrArg _ (arg8_2 m ρ c))]
  exact (Cert.ReferenceIdeal.Stages.layer1 _ _ _ _ _ _ _ _).symm

theorem arg2_4 : W4 m ρ c (Proc.devRef .tc main_arg2) = (m ((c.tc : Thread nD τ).loc main_arg2)) :=
  (W4_of_ne m ρ c main_arg2 (by decide)).trans ((Stretch1.arg2 (W2 m ρ c)).trans (arg2_2 m ρ c))
theorem arg3_4 : W4 m ρ c (Proc.devRef .tc main_arg3) = (m ((c.tc : Thread nD τ).loc main_arg3)) :=
  (W4_of_ne m ρ c main_arg3 (by decide)).trans ((Stretch1.arg3 (W2 m ρ c)).trans (arg3_2 m ρ c))
theorem arg10_4 : W4 m ρ c (Proc.devRef .tc main_arg10) = (m ((c.tc : Thread nD τ).loc main_arg10)) :=
  (W4_of_ne m ρ c main_arg10 (by decide)).trans ((Stretch1.arg10 (W2 m ρ c)).trans (arg10_2 m ρ c))
theorem arg11_4 : W4 m ρ c (Proc.devRef .tc main_arg11) = (m ((c.tc : Thread nD τ).loc main_arg11)) :=
  (W4_of_ne m ρ c main_arg11 (by decide)).trans ((Stretch1.arg11 (W2 m ρ c)).trans (arg11_2 m ρ c))
theorem arg12_4 : W4 m ρ c (Proc.devRef .tc main_arg12) = (m ((c.tc : Thread nD τ).loc main_arg12)) :=
  (W4_of_ne m ρ c main_arg12 (by decide)).trans ((Stretch1.arg12 (W2 m ρ c)).trans (arg12_2 m ρ c))
theorem arg13_4 : W4 m ρ c (Proc.devRef .tc main_arg13) = (m ((c.tc : Thread nD τ).loc main_arg13)) :=
  (W4_of_ne m ρ c main_arg13 (by decide)).trans ((Stretch1.arg13 (W2 m ρ c)).trans (arg13_2 m ρ c))
theorem arg14_4 : W4 m ρ c (Proc.devRef .tc main_arg14) = (m ((c.tc : Thread nD τ).loc main_arg14)) :=
  (W4_of_ne m ρ c main_arg14 (by decide)).trans ((Stretch1.arg14 (W2 m ρ c)).trans (arg14_2 m ρ c))
theorem arg15_4 : W4 m ρ c (Proc.devRef .tc main_arg15) = (m ((c.tc : Thread nD τ).loc main_arg15)) :=
  (W4_of_ne m ρ c main_arg15 (by decide)).trans ((Stretch1.arg15 (W2 m ρ c)).trans (arg15_2 m ρ c))

/-! ## After the third region -/

/-- The result buffer is the reference's result as a function of the argument arrays. -/
theorem result_6 (hconv0 : Conv0) (hconv1 : Conv1) (hreadout : Readout) :
    W6 m ρ c (Proc.devRef .tc main_v42) = val_main_v62 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  refine (W6_arr m ρ c 7).trans ((hreadout (V5 m ρ) c).trans ?_)
  rw [show V5 m ρ c main_v35 = _ from
        (Stretch2.pooled (W4 m ρ c) _ _ _ _ _ _ _ _ (layer1_4 m ρ c hconv0 hconv1)).trans
          (by rw [arg2_4 m ρ c, arg3_4 m ρ c]),
    show V5 m ρ c main_v36 = _ from (Stretch2.w1 (W4 m ρ c)).trans (congrArg _ (arg10_4 m ρ c)),
    show V5 m ρ c main_v39 = _ from (Stretch2.b1 (W4 m ρ c)).trans (congrArg _ (arg11_4 m ρ c)),
    show V5 m ρ c main_v37 = _ from (Stretch2.w2 (W4 m ρ c)).trans (congrArg _ (arg12_4 m ρ c)),
    show V5 m ρ c main_v40 = _ from (Stretch2.b2 (W4 m ρ c)).trans (congrArg _ (arg13_4 m ρ c)),
    show V5 m ρ c main_v38 = _ from (Stretch2.w3 (W4 m ρ c)).trans (congrArg _ (arg14_4 m ρ c)),
    show V5 m ρ c main_v41 = _ from (Stretch2.b3 (W4 m ρ c)).trans (congrArg _ (arg15_4 m ρ c))]
  exact (Cert.ReferenceIdeal.Stages.readout _ _ _ _ _ _ _ _ _ _ _ _ _ _ _ _).symm

end Cert.Bridge

end
-- ==== Proof.LibPlainDot.lean ====
/-
  A plain matrix product read at an entry, at the ideal values.

  A kernel's `tpu.matmul` of an M×K by a K×N matrix (contract the left operand's columns against the right operand's rows,
  no batch axis) into the zero splat is, at the entry (a, b), the sum over the contracted coordinate c of
  `A (a, c) · B (c, b)`: no rounding, no chunk order. In particular an entry of the product reads only row `a` of the
  left operand — rows of the left operand that hold nothing meaningful spoil only their own rows of the product.
-/
import Idealize.ShloMosaic.Lib.ValueIdx
import Idealize.ShloMosaic.Lib.Pipeline.Value
import Idealize.ShloMosaic.PureOps.Ideal.Laws

noncomputable section

namespace Cert.PlainDot

open Idealize.ShloMosaic Idealize.ShloMosaic.ValueIdx

/-- A kernel's plain product of an M×K by a K×N matrix into the zero splat, read at an entry, is the sum over the
    contracted coordinate of the products of the entries. At the ideal values. -/
theorem matmul_zero_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.PlainDot

end
-- ==== Proof.ConvRegions.lean ====
import proofs.«100577_j18511309046119_1_alg».proof.Proof.Gen.KernelIdeal.Frame
import proofs.«100577_j18511309046119_1_alg».proof.Proof.Spec
import proofs.«100577_j18511309046119_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section
namespace Cert.KernelIdeal.RegionValue
open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-! # The two graph-convolution regions, read as whole arrays

Each region runs over 20 points. At point t it loads rows t·5000 … t·5000 + 4999 of the aggregated features and of the
node's own features, the two weights and the bias row whole, and writes back the same rows of the output: entry (p, q)
of the block is max ((∑ c, A (p, c) · Wl (c, q) + ∑ c, X (p, c) · Wr (c, q)) + b (0, q)) 0-word, every operation exact
on the extended reals and every format change the identity. An entry of the block reads only its own row of the two
feature blocks, so the block is rows t·5000 … of the layer computed on the whole arrays; the 20 blocks are disjoint in
rows and cover all 100000 of them, so the output array ends holding the layer. The two regions differ only in the
number of contracted coordinates, 32 and 128. No law of addition is used here: the payload adds in the order the
layer's entry form is written in. -/

/-- The first layer's block payload at the entry (p, q): the two products of the loaded row blocks with the whole
    weights (each a sum over the 32 contracted coordinates, the format changes being the identity on extended reals),
    added, plus the bias row's entry q, clamped below at the zero word. -/
theorem payload0_apply (a x : FVec Ideal S5000x32 .f32) (wl wr : FVec Ideal S32x128 .f32) (b : FVec Ideal S1x128 .f32)
    (p : Fin 5000) (q : Fin 128) :
    k0_pay1 (F := Ideal) a x wl wr b (ix2 p q)
      = max ((Cert.Spec.dotAt a wl p q + Cert.Spec.dotAt x wr p q) + b (ix2 (0 : Fin 1) q)) Cert.Spec.zeroWord := by
  have hA : matmul dot_S5000x32_S32x128_S5000x128_1_0_0_1_n_n none
      (truncf .bf16 (shapeCast S5000x32 a shapeCasts_S5000x32_S5000x32) bitsLt_bf16_f32)
      (truncf .bf16 (shapeCast S32x128 wl shapeCasts_S32x128_S32x128) bitsLt_bf16_f32)
      (constant (F := Ideal) S5000x128 .f32 0x00000000#32) (ix2 p q) = Cert.Spec.dotAt a wl p q := by
    rw [shapeCast_self, shapeCast_self]
    exact Cert.PlainDot.matmul_zero_plain_apply none _ _ p q
  have hX : matmul dot_S5000x32_S32x128_S5000x128_1_0_0_1_n_n none
      (truncf .bf16 x bitsLt_bf16_f32)
      (truncf .bf16 (shapeCast S32x128 wr shapeCasts_S32x128_S32x128) bitsLt_bf16_f32)
      (constant (F := Ideal) S5000x128 .f32 0x00000000#32) (ix2 p q) = Cert.Spec.dotAt x wr p q := by
    rw [shapeCast_self]
    exact Cert.PlainDot.matmul_zero_plain_apply none _ _ p q
  have hB : broadcastTo S5000x128 (shapeCast S1x128 b shapeCasts_S1x128_S1x128) broadcasts_S1x128_S5000x128 (ix2 p q)
      = b (ix2 (0 : Fin 1) q) := by
    rw [shapeCast_self]
    exact broadcastTo_1b_ab_apply b _ p q
  unfold k0_pay1
  refine (maximumf_apply _ _ _).trans ?_
  refine congrArg₂ max ?_ rfl
  refine (addf_apply _ _ _).trans ?_
  refine congrArg₂ (· + ·) ?_ hB
  refine (addf_apply _ _ _).trans ?_
  exact congrArg₂ (· + ·) hA hX

theorem zeroOffsets : (![0, 0] : Fin 2 → Nat) = fun _ => 0 := funext fun a => by fin_cases a <;> rfl

/-- The first layer's index maps over its 20 points: the two feature windows and the output window sit at the t-th
    block of rows and the only block of columns; the weights and the bias sit at their only block. -/
theorem blockIndex0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of the aggregated features' block at point t is row t·5000 + p of the array. -/
theorem read0_0 (c : Dev nD) (t : Fin cfg0.N) (p : Fin 5000) (k : Fin 32) (r : Fin 100000)
    (hr : r.val = t.val * 5000 + p.val) : iblk0 V c 0 t (ix2 p k) = V c main_v13 (ix2 r k) := by
  obtain ⟨e0, e1, -⟩ := blockIndex0 t
  show V c main_v13 (((cfg0.win 0).blk t).view.emb (ix2 p k)) = V c main_v13 (ix2 r k)
  refine congrArg (V c main_v13) ?_
  funext a; apply Fin.ext
  match a with
  | ⟨0, _⟩ => show win0_0.index t (0 : Fin 2) * 5000 + 1 * p.val = r.val; omega
  | ⟨1, _⟩ => show win0_0.index t (1 : Fin 2) * 32 + 1 * k.val = k.val; omega

/-- Row p of the own features' block at point t is row t·5000 + p of the array. -/
theorem read0_1 (c : Dev nD) (t : Fin cfg0.N) (p : Fin 5000) (k : Fin 32) (r : Fin 100000)
    (hr : r.val = t.val * 5000 + p.val) : iblk0 V c 1 t (ix2 p k) = V c main_arg0 (ix2 r k) := by
  obtain ⟨-, -, e0, e1, -⟩ := blockIndex0 t
  show V c main_arg0 (((cfg0.win 1).blk t).view.emb (ix2 p k)) = V c main_arg0 (ix2 r k)
  refine congrArg (V c main_arg0) ?_
  funext a; apply Fin.ext
  match a with
  | ⟨0, _⟩ => show win0_1.index t (0 : Fin 2) * 5000 + 1 * p.val = r.val; omega
  | ⟨1, _⟩ => show win0_1.index t (1 : Fin 2) * 32 + 1 * k.val = k.val; omega

/-- The aggregated features' weight is loaded whole at every point. -/
theorem read0_2 (c : Dev nD) (t : Fin cfg0.N) (k : Fin 32) (q : Fin 128) :
    iblk0 V c 2 t (ix2 k q) = V c main_v14 (ix2 k q) := by
  obtain ⟨-, -, -, -, e0, e1, -⟩ := blockIndex0 t
  show V c main_v14 (((cfg0.win 2).blk t).view.emb (ix2 k q)) = V c main_v14 (ix2 k q)
  refine congrArg (V c main_v14) ?_
  funext a; apply Fin.ext
  match a with
  | ⟨0, _⟩ => show win0_2.index t (0 : Fin 2) * 32 + 1 * k.val = k.val; omega
  | ⟨1, _⟩ => show win0_2.index t (1 : Fin 2) * 128 + 1 * q.val = q.val; omega

/-- The own features' weight is loaded whole at every point. -/
theorem read0_3 (c : Dev nD) (t : Fin cfg0.N) (k : Fin 32) (q : Fin 128) :
    iblk0 V c 3 t (ix2 k q) = V c main_v15 (ix2 k q) := by
  obtain ⟨-, -, -, -, -, -, e0, e1, -⟩ := blockIndex0 t
  show V c main_v15 (((cfg0.win 3).blk t).view.emb (ix2 k q)) = V c main_v15 (ix2 k q)
  refine congrArg (V c main_v15) ?_
  funext a; apply Fin.ext
  match a with
  | ⟨0, _⟩ => show win0_3.index t (0 : Fin 2) * 32 + 1 * k.val = k.val; omega
  | ⟨1, _⟩ => show win0_3.index t (1 : Fin 2) * 128 + 1 * q.val = q.val; omega

/-- The bias row is loaded whole at every point. -/
theorem read0_4 (c : Dev nD) (t : Fin cfg0.N) (u : Fin 1) (q : Fin 128) :
    iblk0 V c 4 t (ix2 u q) = V c main_v16 (ix2 u q) := by
  obtain ⟨-, -, -, -, -, -, -, -, e0, e1, -⟩ := blockIndex0 t
  show V c main_v16 (((cfg0.win 4).blk t).view.emb (ix2 u q)) = V c main_v16 (ix2 u q)
  refine congrArg (V c main_v16) ?_
  funext a; apply Fin.ext
  match a with
  | ⟨0, _⟩ => show win0_4.index t (0 : Fin 2) * 1 + 1 * u.val = u.val; omega
  | ⟨1, _⟩ => show win0_4.index t (1 : Fin 2) * 128 + 1 * q.val = q.val; omega

/-- Entry (p, q) of the output block at point t sits at row t·5000 + p, column q of the array. -/
theorem place0 (t : Fin cfg0.N) (p : Fin 5000) (q : Fin 128) (r : Fin 100000) (hr : r.val = t.val * 5000 + p.val) :
    ((cfg0.win 5).blk t).view.emb (ix2 p q) = ix2 r q := by
  obtain ⟨-, -, -, -, -, -, -, -, -, -, e0, e1⟩ := blockIndex0 t
  funext a; apply Fin.ext
  match a with
  | ⟨0, _⟩ => show win0_5.index t (0 : Fin 2) * 5000 + 1 * p.val = r.val; omega
  | ⟨1, _⟩ => show win0_5.index t (1 : Fin 2) * 128 + 1 * q.val = q.val; omega

/-- What point t writes back is block t of the first graph-convolution layer of the arrays the region finds: the
    payload's two products read rows t·5000 + p of the features and the whole weights, so each is the layer's product
    at that row. -/
theorem flushed0_eq (c : Dev nD) (t : Fin cfg0.N) :
    (dat0 (F := Ideal) V c).flushed 5 t = ((cfg0.win 5).blk t).view.read (Elt Ideal)
      (Cert.Spec.sage (V c main_v13) (V c main_arg0) (V c main_v14) (V c main_v15) (V c main_v16)) := by
  show (cfg0.win 5).cut (grid0.coords t) ((dat0 (F := Ideal) V c).after 5 t) = _
  rw [after0_5]
  unfold out0_5
  rw [View.canon_unit_zero zeroOffsets]
  simp only [View.ld_unit_zero (S := S5000x32) zeroOffsets, View.ld_unit_zero (S := S32x128) zeroOffsets,
    View.ld_unit_zero (S := S1x128) zeroOffsets]
  refine funext fun (j : S5000x128.Idx) => ?_
  obtain ⟨p, q, rfl⟩ : ∃ (p : Fin 5000) (q : Fin 128), j = ix2 p q := ⟨j 0, j 1, eq_ix2 j⟩
  have hN : t.val < 20 := Nat.lt_of_lt_of_eq t.isLt N_0
  have hp : p.val < 5000 := p.isLt
  show k0_pay1 (F := Ideal) (iblk0 V c 0 t) (iblk0 V c 1 t) (iblk0 V c 2 t) (iblk0 V c 3 t) (iblk0 V c 4 t) (ix2 p q)
    = Cert.Spec.sage (V c main_v13) (V c main_arg0) (V c main_v14) (V c main_v15) (V c main_v16)
        (((cfg0.win 5).blk t).view.emb (ix2 p q))
  refine (payload0_apply (iblk0 V c 0 t) (iblk0 V c 1 t) (iblk0 V c 2 t) (iblk0 V c 3 t) (iblk0 V c 4 t) p q).trans ?_
  refine Eq.trans ?_ (congrArg (Cert.Spec.sage (V c main_v13) (V c main_arg0) (V c main_v14) (V c main_v15) (V c main_v16))
    (place0 t p q ⟨t.val * 5000 + p.val, by omega⟩ rfl)).symm
  refine congrArg₂ max (congrArg₂ (· + ·) (congrArg₂ (· + ·) ?_ ?_) (read0_4 V c t 0 q)) rfl
  · exact Finset.sum_congr rfl fun k _ => congrArg₂ (· * ·) (read0_0 V c t p k _ rfl) (read0_2 V c t k q)
  · exact Finset.sum_congr rfl fun k _ => congrArg₂ (· * ·) (read0_1 V c t p k _ rfl) (read0_3 V c t k q)

/-- An index of the output array is in point t's block iff each coordinate is in the block's range on its axis. -/
theorem mem_blk0 (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v17).slice (win0_5.rect t)).set ↔ _
  rw [View.set_slice_whole, Rect.mem_set_unit]
  exact Iff.rfl

/-- The 20 blocks of 5000 rows cover the 100000 rows: row r is in the block of point r / 5000. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨-, -, -, -, -, -, -, -, -, -, e0, e1⟩ := blockIndex0 t
  have ht : t.val = (i 0).val / 5000 := rfl
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The first graph-convolution region leaves its output array holding the layer of the arrays it found. -/
theorem final0 (c : Dev nD) : (dat0 (F := Ideal) V c).arrAt 5 cfg0.N
    = Cert.Spec.sage (V c main_v13) (V c main_arg0) (V c main_v14) (V c main_v15) (V c main_v16) :=
  (dat0 (F := Ideal) V c).arrAt_eq_of_cover 5
    (Cert.Spec.sage (V c main_v13) (V c main_arg0) (V c main_v14) (V c main_v15) (V c main_v16))
    (fun t _ => flushed0_eq V c t) (fun i => cover0 i)

/-- The second layer's block payload at the entry (p, q): the two products of the loaded row blocks with the whole
    weights (each a sum over the 128 contracted coordinates, the format changes being the identity on extended reals),
    added, plus the bias row's entry q, clamped below at the zero word. -/
theorem payload1_apply (a x : FVec Ideal S5000x128 .f32) (wl wr : FVec Ideal S128x128 .f32) (b : FVec Ideal S1x128 .f32)
    (p : Fin 5000) (q : Fin 128) :
    k1_pay1 (F := Ideal) a x wl wr b (ix2 p q)
      = max ((Cert.Spec.dotAt a wl p q + Cert.Spec.dotAt x wr p q) + b (ix2 (0 : Fin 1) q)) Cert.Spec.zeroWord := by
  have hA : matmul dot_S5000x128_S128x128_S5000x128_1_0_0_1_n_n none
      (truncf .bf16 (shapeCast S5000x128 a shapeCasts_S5000x128_S5000x128) bitsLt_bf16_f32)
      (truncf .bf16 (shapeCast S128x128 wl shapeCasts_S128x128_S128x128) bitsLt_bf16_f32)
      (constant (F := Ideal) S5000x128 .f32 0x00000000#32) (ix2 p q) = Cert.Spec.dotAt a wl p q := by
    rw [shapeCast_self, shapeCast_self]
    exact Cert.PlainDot.matmul_zero_plain_apply none _ _ p q
  have hX : matmul dot_S5000x128_S128x128_S5000x128_1_0_0_1_n_n none
      (truncf .bf16 (shapeCast S5000x128 x shapeCasts_S5000x128_S5000x128) bitsLt_bf16_f32)
      (truncf .bf16 (shapeCast S128x128 wr shapeCasts_S128x128_S128x128) bitsLt_bf16_f32)
      (constant (F := Ideal) S5000x128 .f32 0x00000000#32) (ix2 p q) = Cert.Spec.dotAt x wr p q := by
    rw [shapeCast_self, shapeCast_self]
    exact Cert.PlainDot.matmul_zero_plain_apply none _ _ p q
  have hB : broadcastTo S5000x128 (shapeCast S1x128 b shapeCasts_S1x128_S1x128) broadcasts_S1x128_S5000x128 (ix2 p q)
      = b (ix2 (0 : Fin 1) q) := by
    rw [shapeCast_self]
    exact broadcastTo_1b_ab_apply b _ p q
  unfold k1_pay1
  refine (maximumf_apply _ _ _).trans ?_
  refine congrArg₂ max ?_ rfl
  refine (addf_apply _ _ _).trans ?_
  refine congrArg₂ (· + ·) ?_ hB
  refine (addf_apply _ _ _).trans ?_
  exact congrArg₂ (· + ·) hA hX

/-- The second layer's index maps over its 20 points: the two feature windows and the output window sit at the t-th
    block of rows and the only block of columns; the weights and the bias sit at their only block. -/
theorem blockIndex1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of the aggregated features' block at point t is row t·5000 + p of the array. -/
theorem read1_0 (c : Dev nD) (t : Fin cfg1.N) (p : Fin 5000) (k : Fin 128) (r : Fin 100000)
    (hr : r.val = t.val * 5000 + p.val) : iblk1 V c 0 t (ix2 p k) = V c main_v27 (ix2 r k) := by
  obtain ⟨e0, e1, -⟩ := blockIndex1 t
  show V c main_v27 (((cfg1.win 0).blk t).view.emb (ix2 p k)) = V c main_v27 (ix2 r k)
  refine congrArg (V c main_v27) ?_
  funext a; apply Fin.ext
  match a with
  | ⟨0, _⟩ => show win1_0.index t (0 : Fin 2) * 5000 + 1 * p.val = r.val; omega
  | ⟨1, _⟩ => show win1_0.index t (1 : Fin 2) * 128 + 1 * k.val = k.val; omega

/-- Row p of the own features' block at point t is row t·5000 + p of the array. -/
theorem read1_1 (c : Dev nD) (t : Fin cfg1.N) (p : Fin 5000) (k : Fin 128) (r : Fin 100000)
    (hr : r.val = t.val * 5000 + p.val) : iblk1 V c 1 t (ix2 p k) = V c main_v17 (ix2 r k) := by
  obtain ⟨-, -, e0, e1, -⟩ := blockIndex1 t
  show V c main_v17 (((cfg1.win 1).blk t).view.emb (ix2 p k)) = V c main_v17 (ix2 r k)
  refine congrArg (V c main_v17) ?_
  funext a; apply Fin.ext
  match a with
  | ⟨0, _⟩ => show win1_1.index t (0 : Fin 2) * 5000 + 1 * p.val = r.val; omega
  | ⟨1, _⟩ => show win1_1.index t (1 : Fin 2) * 128 + 1 * k.val = k.val; omega

/-- The aggregated features' weight is loaded whole at every point. -/
theorem read1_2 (c : Dev nD) (t : Fin cfg1.N) (k : Fin 128) (q : Fin 128) :
    iblk1 V c 2 t (ix2 k q) = V c main_v28 (ix2 k q) := by
  obtain ⟨-, -, -, -, e0, e1, -⟩ := blockIndex1 t
  show V c main_v28 (((cfg1.win 2).blk t).view.emb (ix2 k q)) = V c main_v28 (ix2 k q)
  refine congrArg (V c main_v28) ?_
  funext a; apply Fin.ext
  match a with
  | ⟨0, _⟩ => show win1_2.index t (0 : Fin 2) * 128 + 1 * k.val = k.val; omega
  | ⟨1, _⟩ => show win1_2.index t (1 : Fin 2) * 128 + 1 * q.val = q.val; omega

/-- The own features' weight is loaded whole at every point. -/
theorem read1_3 (c : Dev nD) (t : Fin cfg1.N) (k : Fin 128) (q : Fin 128) :
    iblk1 V c 3 t (ix2 k q) = V c main_v29 (ix2 k q) := by
  obtain ⟨-, -, -, -, -, -, e0, e1, -⟩ := blockIndex1 t
  show V c main_v29 (((cfg1.win 3).blk t).view.emb (ix2 k q)) = V c main_v29 (ix2 k q)
  refine congrArg (V c main_v29) ?_
  funext a; apply Fin.ext
  match a with
  | ⟨0, _⟩ => show win1_3.index t (0 : Fin 2) * 128 + 1 * k.val = k.val; omega
  | ⟨1, _⟩ => show win1_3.index t (1 : Fin 2) * 128 + 1 * q.val = q.val; omega

/-- The bias row is loaded whole at every point. -/
theorem read1_4 (c : Dev nD) (t : Fin cfg1.N) (u : Fin 1) (q : Fin 128) :
    iblk1 V c 4 t (ix2 u q) = V c main_v30 (ix2 u q) := by
  obtain ⟨-, -, -, -, -, -, -, -, e0, e1, -⟩ := blockIndex1 t
  show V c main_v30 (((cfg1.win 4).blk t).view.emb (ix2 u q)) = V c main_v30 (ix2 u q)
  refine congrArg (V c main_v30) ?_
  funext a; apply Fin.ext
  match a with
  | ⟨0, _⟩ => show win1_4.index t (0 : Fin 2) * 1 + 1 * u.val = u.val; omega
  | ⟨1, _⟩ => show win1_4.index t (1 : Fin 2) * 128 + 1 * q.val = q.val; omega

/-- Entry (p, q) of the output block at point t sits at row t·5000 + p, column q of the array. -/
theorem place1 (t : Fin cfg1.N) (p : Fin 5000) (q : Fin 128) (r : Fin 100000) (hr : r.val = t.val * 5000 + p.val) :
    ((cfg1.win 5).blk t).view.emb (ix2 p q) = ix2 r q := by
  obtain ⟨-, -, -, -, -, -, -, -, -, -, e0, e1⟩ := blockIndex1 t
  funext a; apply Fin.ext
  match a with
  | ⟨0, _⟩ => show win1_5.index t (0 : Fin 2) * 5000 + 1 * p.val = r.val; omega
  | ⟨1, _⟩ => show win1_5.index t (1 : Fin 2) * 128 + 1 * q.val = q.val; omega

/-- What point t writes back is block t of the second graph-convolution layer of the arrays the region finds: the
    payload's two products read rows t·5000 + p of the features and the whole weights, so each is the layer's product
    at that row. -/
theorem flushed1_eq (c : Dev nD) (t : Fin cfg1.N) :
    (dat1 (F := Ideal) V c).flushed 5 t = ((cfg1.win 5).blk t).view.read (Elt Ideal)
      (Cert.Spec.sage (V c main_v27) (V c main_v17) (V c main_v28) (V c main_v29) (V c main_v30)) := by
  show (cfg1.win 5).cut (grid1.coords t) ((dat1 (F := Ideal) V c).after 5 t) = _
  rw [after1_5]
  unfold out1_5
  rw [View.canon_unit_zero zeroOffsets]
  simp only [View.ld_unit_zero (S := S5000x128) zeroOffsets, View.ld_unit_zero (S := S128x128) zeroOffsets,
    View.ld_unit_zero (S := S1x128) zeroOffsets]
  refine funext fun (j : S5000x128.Idx) => ?_
  obtain ⟨p, q, rfl⟩ : ∃ (p : Fin 5000) (q : Fin 128), j = ix2 p q := ⟨j 0, j 1, eq_ix2 j⟩
  have hN : t.val < 20 := Nat.lt_of_lt_of_eq t.isLt N_1
  have hp : p.val < 5000 := p.isLt
  show k1_pay1 (F := Ideal) (iblk1 V c 0 t) (iblk1 V c 1 t) (iblk1 V c 2 t) (iblk1 V c 3 t) (iblk1 V c 4 t) (ix2 p q)
    = Cert.Spec.sage (V c main_v27) (V c main_v17) (V c main_v28) (V c main_v29) (V c main_v30)
        (((cfg1.win 5).blk t).view.emb (ix2 p q))
  refine (payload1_apply (iblk1 V c 0 t) (iblk1 V c 1 t) (iblk1 V c 2 t) (iblk1 V c 3 t) (iblk1 V c 4 t) p q).trans ?_
  refine Eq.trans ?_ (congrArg (Cert.Spec.sage (V c main_v27) (V c main_v17) (V c main_v28) (V c main_v29) (V c main_v30))
    (place1 t p q ⟨t.val * 5000 + p.val, by omega⟩ rfl)).symm
  refine congrArg₂ max (congrArg₂ (· + ·) (congrArg₂ (· + ·) ?_ ?_) (read1_4 V c t 0 q)) rfl
  · exact Finset.sum_congr rfl fun k _ => congrArg₂ (· * ·) (read1_0 V c t p k _ rfl) (read1_2 V c t k q)
  · exact Finset.sum_congr rfl fun k _ => congrArg₂ (· * ·) (read1_1 V c t p k _ rfl) (read1_3 V c t k q)

/-- An index of the output array is in point t's block iff each coordinate is in the block's range on its axis. -/
theorem mem_blk1 (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v31).slice (win1_5.rect t)).set ↔ _
  rw [View.set_slice_whole, Rect.mem_set_unit]
  exact Iff.rfl

/-- The 20 blocks of 5000 rows cover the 100000 rows: row r is in the block of point r / 5000. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  obtain ⟨-, -, -, -, -, -, -, -, -, -, e0, e1⟩ := blockIndex1 t
  have ht : t.val = (i 0).val / 5000 := rfl
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The second graph-convolution region leaves its output array holding the layer of the arrays it found. -/
theorem final1 (c : Dev nD) : (dat1 (F := Ideal) V c).arrAt 5 cfg1.N
    = Cert.Spec.sage (V c main_v27) (V c main_v17) (V c main_v28) (V c main_v29) (V c main_v30) :=
  (dat1 (F := Ideal) V c).arrAt_eq_of_cover 5
    (Cert.Spec.sage (V c main_v27) (V c main_v17) (V c main_v28) (V c main_v29) (V c main_v30))
    (fun t _ => flushed1_eq V c t) (fun i => cover1 i)

end Cert.KernelIdeal.RegionValue
end
-- ==== Proof.ReadoutRegion.lean ====
import proofs.«100577_j18511309046119_1_alg».proof.Proof.Gen.KernelIdeal.Frame
import proofs.«100577_j18511309046119_1_alg».proof.Proof.Spec
import proofs.«100577_j18511309046119_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section
namespace Cert.KernelIdeal.RegionValue
open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-!
  # The read-out region: the output array after it is the read-out of the seven arrays it reads

  The region's grid has one point, and each of its eight windows is one block that is the whole array: the [512,129]
  input, the weights [129,64], [64,32], [32,6] with their bias rows [1,64], [1,32], [1,6], and the [512,6] output. The body
  loads the seven input blocks and stores one value: three linear layers chained, the first two clamped below at the zero
  word. At the ideal values a product into the zero matrix is, at entry (p, q), the sum over the contracted coordinate of
  the entries' products, a change of format is the identity, and a bias row broadcast over the rows reads its entry of
  column q; so each layer is, entry by entry, the specification's layer (no law of addition is needed: the body adds the
  bias after the product, as the specification does). The one point's block covers the output array, so after the region
  the array holds the read-out.
-/

/-! ## The body's stored value is the read-out of its loaded blocks -/

/-- The first layer of the read-out as a whole matrix: the product of the [512,129] input by the [129,64] weight, plus the
    bias row on every row, clamped below at the zero word. The change of format before the product is the identity at
    the ideal values. -/
theorem readoutLayer1 (z : FVec Ideal S512x129 .f32) (w : FVec Ideal S129x64 .f32) (b : FVec Ideal S1x64 .f32) :
    (maximumf (addf (matmul dot_S512x129_S129x64_S512x64_1_0_0_1_n_n none (truncf .bf16 z bitsLt_bf16_f32) (truncf .bf16 w bitsLt_bf16_f32)
        (constant S512x64 .f32 0x00000000#32)) (broadcastTo S512x64 b broadcasts_S1x64_S512x64))
      (broadcast S512x64 (Scalar.ofBits .f32 0x00000000#32)) : FVec Ideal S512x64 .f32)
    = Cert.Spec.reluLin z w b := by
  funext j
  obtain ⟨p, q, rfl⟩ : ∃ (p : Fin 512) (q : Fin 64), j = ix2 p q := ⟨j 0, j 1, eq_ix2 j⟩
  rw [Cert.Spec.reluLin_ix2, maximumf_apply, addf_apply, broadcast_apply]
  refine congrArg₂ max (congrArg₂ (· + ·) ?_ ?_) rfl
  · exact Cert.PlainDot.matmul_zero_plain_apply none (truncf .bf16 z bitsLt_bf16_f32) (truncf .bf16 w bitsLt_bf16_f32) p q
  · exact broadcastTo_1b_ab_apply b broadcasts_S1x64_S512x64 p q

/-- The second layer as a whole matrix: the product of a [512,64] matrix by the [64,32] weight, plus the bias row on every
    row, clamped below at the zero word. -/
theorem readoutLayer2 (z : FVec Ideal S512x64 .f32) (w : FVec Ideal S64x32 .f32) (b : FVec Ideal S1x32 .f32) :
    (maximumf (addf (matmul dot_S512x64_S64x32_S512x32_1_0_0_1_n_n none (truncf .bf16 z bitsLt_bf16_f32) (truncf .bf16 w bitsLt_bf16_f32)
        (constant S512x32 .f32 0x00000000#32)) (broadcastTo S512x32 b broadcasts_S1x32_S512x32))
      (broadcast S512x32 (Scalar.ofBits .f32 0x00000000#32)) : FVec Ideal S512x32 .f32)
    = Cert.Spec.reluLin z w b := by
  funext j
  obtain ⟨p, q, rfl⟩ : ∃ (p : Fin 512) (q : Fin 32), j = ix2 p q := ⟨j 0, j 1, eq_ix2 j⟩
  rw [Cert.Spec.reluLin_ix2, maximumf_apply, addf_apply, broadcast_apply]
  refine congrArg₂ max (congrArg₂ (· + ·) ?_ ?_) rfl
  · exact Cert.PlainDot.matmul_zero_plain_apply none (truncf .bf16 z bitsLt_bf16_f32) (truncf .bf16 w bitsLt_bf16_f32) p q
  · exact broadcastTo_1b_ab_apply b broadcasts_S1x32_S512x32 p q

/-- The last layer as a whole matrix: the product of a [512,32] matrix by the [32,6] weight, plus the bias row on every
    row; no clamp. -/
theorem readoutLayer3 (z : FVec Ideal S512x32 .f32) (w : FVec Ideal S32x6 .f32) (b : FVec Ideal S1x6 .f32) :
    (addf (matmul dot_S512x32_S32x6_S512x6_1_0_0_1_n_n none (truncf .bf16 z bitsLt_bf16_f32) (truncf .bf16 w bitsLt_bf16_f32)
        (constant S512x6 .f32 0x00000000#32)) (broadcastTo S512x6 b broadcasts_S1x6_S512x6) : FVec Ideal S512x6 .f32)
    = Cert.Spec.lin z w b := by
  funext j
  obtain ⟨p, q, rfl⟩ : ∃ (p : Fin 512) (q : Fin 6), j = ix2 p q := ⟨j 0, j 1, eq_ix2 j⟩
  rw [Cert.Spec.lin_ix2, addf_apply]
  refine congrArg₂ (· + ·) ?_ ?_
  · exact Cert.PlainDot.matmul_zero_plain_apply none (truncf .bf16 z bitsLt_bf16_f32) (truncf .bf16 w bitsLt_bf16_f32) p q
  · exact broadcastTo_1b_ab_apply b broadcasts_S1x6_S512x6 p q

/-- The body's stored value is the read-out of its seven loaded blocks: the three layers chained, each identity cast
    dropped. -/
theorem payload_eq_mlp (x : FVec Ideal S512x129 .f32) (w1 : FVec Ideal S129x64 .f32) (b1 : FVec Ideal S1x64 .f32)
    (w2 : FVec Ideal S64x32 .f32) (b2 : FVec Ideal S1x32 .f32) (w3 : FVec Ideal S32x6 .f32) (b3 : FVec Ideal S1x6 .f32) :
    k2_pay1 (F := Ideal) x w1 b1 w2 b2 w3 b3 = Cert.Spec.mlp x w1 b1 w2 b2 w3 b3 := by
  unfold k2_pay1 Cert.Spec.mlp
  simp only [shapeCast_self]
  rw [readoutLayer1, readoutLayer2, readoutLayer3]

/-! ## The one grid point's blocks are the whole arrays -/

/-- Both offsets of every window's one block are zero. -/
theorem offsets_zero : (![0, 0] : Fin 2 → Nat) = fun _ => 0 := funext fun a => by fin_cases a <;> rfl

/-- Window 0's block at the one grid point is the whole array: the [512,129] input, read through zero offsets at its own sizes. -/
theorem block0_whole (c : Dev nD) (t : Fin cfg2.N) : (iblk2 V c 0 t : Vec Ideal S512x129 .f32) = V c main_v35 := by
  unfold iblk2
  have hz' : (fun a => win2_0.index t a * main_v35.ty.shape.size a) = fun _ => 0 := funext fun a => by fin_cases a <;> rfl
  exact Memref.read_access_unit_zero (Elt Ideal) main_v35 hz' (fun a => by rw [congrFun hz' a]; simp) (V c main_v35)

/-- Window 1's block at the one grid point is the whole array: the first weight [129,64], read through zero offsets at its own sizes. -/
theorem block1_whole (c : Dev nD) (t : Fin cfg2.N) : (iblk2 V c 1 t : Vec Ideal S129x64 .f32) = V c main_v36 := by
  unfold iblk2
  have hz' : (fun a => win2_1.index t a * main_v36.ty.shape.size a) = fun _ => 0 := funext fun a => by fin_cases a <;> rfl
  exact Memref.read_access_unit_zero (Elt Ideal) main_v36 hz' (fun a => by rw [congrFun hz' a]; simp) (V c main_v36)

/-- Window 2's block at the one grid point is the whole array: the first bias row [1,64], read through zero offsets at its own sizes. -/
theorem block2_whole (c : Dev nD) (t : Fin cfg2.N) : (iblk2 V c 2 t : Vec Ideal S1x64 .f32) = V c main_v39 := by
  unfold iblk2
  have hz' : (fun a => win2_2.index t a * main_v39.ty.shape.size a) = fun _ => 0 := funext fun a => by fin_cases a <;> rfl
  exact Memref.read_access_unit_zero (Elt Ideal) main_v39 hz' (fun a => by rw [congrFun hz' a]; simp) (V c main_v39)

/-- Window 3's block at the one grid point is the whole array: the second weight [64,32], read through zero offsets at its own sizes. -/
theorem block3_whole (c : Dev nD) (t : Fin cfg2.N) : (iblk2 V c 3 t : Vec Ideal S64x32 .f32) = V c main_v37 := by
  unfold iblk2
  have hz' : (fun a => win2_3.index t a * main_v37.ty.shape.size a) = fun _ => 0 := funext fun a => by fin_cases a <;> rfl
  exact Memref.read_access_unit_zero (Elt Ideal) main_v37 hz' (fun a => by rw [congrFun hz' a]; simp) (V c main_v37)

/-- Window 4's block at the one grid point is the whole array: the second bias row [1,32], read through zero offsets at its own sizes. -/
theorem block4_whole (c : Dev nD) (t : Fin cfg2.N) : (iblk2 V c 4 t : Vec Ideal S1x32 .f32) = V c main_v40 := by
  unfold iblk2
  have hz' : (fun a => win2_4.index t a * main_v40.ty.shape.size a) = fun _ => 0 := funext fun a => by fin_cases a <;> rfl
  exact Memref.read_access_unit_zero (Elt Ideal) main_v40 hz' (fun a => by rw [congrFun hz' a]; simp) (V c main_v40)

/-- Window 5's block at the one grid point is the whole array: the last weight [32,6], read through zero offsets at its own sizes. -/
theorem block5_whole (c : Dev nD) (t : Fin cfg2.N) : (iblk2 V c 5 t : Vec Ideal S32x6 .f32) = V c main_v38 := by
  unfold iblk2
  have hz' : (fun a => win2_5.index t a * main_v38.ty.shape.size a) = fun _ => 0 := funext fun a => by fin_cases a <;> rfl
  exact Memref.read_access_unit_zero (Elt Ideal) main_v38 hz' (fun a => by rw [congrFun hz' a]; simp) (V c main_v38)

/-- Window 6's block at the one grid point is the whole array: the last bias row [1,6], read through zero offsets at its own sizes. -/
theorem block6_whole (c : Dev nD) (t : Fin cfg2.N) : (iblk2 V c 6 t : Vec Ideal S1x6 .f32) = V c main_v41 := by
  unfold iblk2
  have hz' : (fun a => win2_6.index t a * main_v41.ty.shape.size a) = fun _ => 0 := funext fun a => by fin_cases a <;> rfl
  exact Memref.read_access_unit_zero (Elt Ideal) main_v41 hz' (fun a => by rw [congrFun hz' a]; simp) (V c main_v41)

/-! ## What the one point writes back, and the array after it -/

/-- What the grid's one point writes back to the output array is the (whole-array) block of the read-out of the seven
    argument arrays: the body's one store leaves its payload, the payload is the read-out of the loaded blocks, and
    each loaded block is its whole array. -/
theorem flushed_eq_block (c : Dev nD) (t : Fin cfg2.N) :
    (dat2 (F := Ideal) V c).flushed 7 t = ((cfg2.win 7).blk t).view.read (Elt Ideal)
      (Cert.Spec.mlp (V c main_v35) (V c main_v36) (V c main_v39) (V c main_v37) (V c main_v40) (V c main_v38) (V c main_v41)) := by
  show (cfg2.win 7).cut (grid2.coords t) ((dat2 V c).after 7 t) = _
  rw [after2_7]
  unfold out2_7
  rw [View.canon_unit_zero offsets_zero]
  simp only [View.ld_unit_zero (S := S512x129) offsets_zero, View.ld_unit_zero (S := S129x64) offsets_zero,
    View.ld_unit_zero (S := S1x64) offsets_zero, View.ld_unit_zero (S := S64x32) offsets_zero,
    View.ld_unit_zero (S := S1x32) offsets_zero, View.ld_unit_zero (S := S32x6) offsets_zero,
    View.ld_unit_zero (S := S1x6) offsets_zero]
  rw [payload_eq_mlp, block0_whole, block1_whole, block2_whole, block3_whole, block4_whole, block5_whole, block6_whole]
  generalize (Cert.Spec.mlp (V c main_v35) (V c main_v36) (V c main_v39) (V c main_v37) (V c main_v40) (V c main_v38) (V c main_v41)) = G
  have hz' : (fun a => win2_7.index t a * main_v42.ty.shape.size a) = fun _ => 0 := funext fun a => by fin_cases a <;> rfl
  exact (Memref.read_access_unit_zero (Elt Ideal) main_v42 hz' (fun a => by rw [congrFun hz' a]; simp) G).symm

/-- Every index of the [512,6] output array is in the one point's block: the block starts at (0, 0) and has the
    array's own sizes. -/
theorem covered (i : S512x6.Idx) :
    ∃ t : Fin cfg2.N, (cfg2.win 7).flush t = true ∧ i ∈ ((cfg2.win 7).blk t).view.set :=
  ⟨t2_0, flush2_7 t2_0, by
    show i ∈ ((View.whole main_v42).slice (win2_7.rect t2_0)).set
    rw [View.set_slice_whole, Rect.mem_set_unit]
    intro a
    have h0 : (i 0 : Nat) < 512 := (i 0).isLt
    have h1 : (i 1 : Nat) < 6 := (i 1).isLt
    match a with
    | ⟨0, _⟩ =>
      show win2_7.index t2_0 0 * win2_7.size 0 ≤ (i 0 : Nat) ∧ (i 0 : Nat) < win2_7.index t2_0 0 * win2_7.size 0 + win2_7.xsize (grid2.coords t2_0) 0
      rw [show win2_7.index t2_0 0 * win2_7.size 0 = 0 from by decide +kernel, show win2_7.xsize (grid2.coords t2_0) 0 = 512 from by decide +kernel]; omega
    | ⟨1, _⟩ =>
      show win2_7.index t2_0 1 * win2_7.size 1 ≤ (i 1 : Nat) ∧ (i 1 : Nat) < win2_7.index t2_0 1 * win2_7.size 1 + win2_7.xsize (grid2.coords t2_0) 1
      rw [show win2_7.index t2_0 1 * win2_7.size 1 = 0 from by decide +kernel, show win2_7.xsize (grid2.coords t2_0) 1 = 6 from by decide +kernel]; omega⟩

/-- The output array after the region is the read-out of the seven argument arrays as the region finds them: the one
    point's block covers the array and holds the read-out. -/
theorem final2 (c : Dev nD) : (dat2 (F := Ideal) V c).arrAt 7 cfg2.N
    = Cert.Spec.mlp (V c main_v35) (V c main_v36) (V c main_v39) (V c main_v37) (V c main_v40) (V c main_v38) (V c main_v41) := by
  exact (dat2 (F := Ideal) V c).arrAt_eq_of_cover 7 _ (fun t _ => flushed_eq_block V c t) covered

end Cert.KernelIdeal.RegionValue
end
-- ==== Proof.lean ====
/-
  The certificate's claims.

  Both programs compute a two-layer graph network with a read-out: each graph-convolution layer is
  max ((A·Wl + X·Wr) + b, 0) of the neighbourhood sums A of the node features X, the read-out three linear layers (the
  first two clamped at zero) of the per-graph sums of the second layer's result with one more column joined.  The
  neighbourhood and per-graph sums are the same host gather and scatter-add in both programs and are never opened.  The
  kernel program runs the three layers as pipelined regions (the first two tiled over twenty blocks of rows), the
  reference as host matrix products; on the extended reals both are the same sums, the reference adding the bias
  between the two products where the kernel adds it last — commutativity and associativity of addition, which hold with
  no finiteness hypothesis: the precondition is never opened.

  The three frames are the generated ones (the reference's is its generated run with the result dropped); the
  idealization rewrote no operation, so `preserves` is trivial; `algebraic` puts the kernel program's result buffer,
  followed back through @main's segments to the argument arrays (KernelRun, KernelValue over the regions' layers in
  ConvRegions and ReadoutRegion), beside the reference's generated run read layer by layer (ReferenceStages).
-/
import proofs.«100577_j18511309046119_1_alg».proof.Defs
import proofs.«100577_j18511309046119_1_alg».proof.Proof.Gen.Kernel
import proofs.«100577_j18511309046119_1_alg».proof.Proof.Gen.Kernel.Skeleton
import proofs.«100577_j18511309046119_1_alg».proof.Proof.Gen.Kernel.Launch
import proofs.«100577_j18511309046119_1_alg».proof.Proof.Gen.Kernel.Points
import proofs.«100577_j18511309046119_1_alg».proof.Proof.Gen.Kernel.Frame
import proofs.«100577_j18511309046119_1_alg».proof.Proof.Gen.KernelIdeal
import proofs.«100577_j18511309046119_1_alg».proof.Proof.Gen.KernelIdeal.Skeleton
import proofs.«100577_j18511309046119_1_alg».proof.Proof.Gen.KernelIdeal.Launch
import proofs.«100577_j18511309046119_1_alg».proof.Proof.Gen.KernelIdeal.Points
import proofs.«100577_j18511309046119_1_alg».proof.Proof.Gen.KernelIdeal.Frame
import proofs.«100577_j18511309046119_1_alg».proof.Proof.Gen.ReferenceIdeal
import proofs.«100577_j18511309046119_1_alg».proof.Proof.Gen.ReferenceIdeal.Run
import proofs.«100577_j18511309046119_1_alg».proof.Proof.Gen.ReferenceIdeal.Read
import proofs.«100577_j18511309046119_1_alg».proof.Proof.Gen.Pre_finite_inputs
import proofs.«100577_j18511309046119_1_alg».proof.Proof.KernelRun
import proofs.«100577_j18511309046119_1_alg».proof.Proof.KernelValue
import proofs.«100577_j18511309046119_1_alg».proof.Proof.ConvRegions
import proofs.«100577_j18511309046119_1_alg».proof.Proof.ReadoutRegion
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result buffer at the reference's result as a function of the kernel program's argument
    arrays: the kernel program's by following its segments, the reference's by its generated run and the agreement of the
    two memories on the arguments. -/
theorem algebraic : Cert.algebraic_KernelIdeal_ReferenceIdeal := by
  intro m ρ m' ρ' _ hagree
  refine ⟨fun c => Cert.KernelIdeal.Gen.W6 m ρ c (Proc.devRef .tc Cert.KernelIdeal.main_v42),
    Cert.KernelIdeal.RunValue.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v62_eq m' c, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2]
  exact (Cert.Bridge.result_6 m ρ c Cert.KernelIdeal.RegionValue.final0 Cert.KernelIdeal.RegionValue.final1
    Cert.KernelIdeal.RegionValue.final2).symm

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, preserves, algebraic⟩

end Cert.Proof

end
